-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S_ : Shape := ⟨0, ![]⟩

class Facts : Prop where
  bcast_S_S8192x520 : S_.BroadcastsInDim S8192x520 (![] : Fin 0 → Fin S8192x520.rank)
  reducesTo_S8192x520_S_d0_1 : S8192x520.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x257 : S_.BroadcastsInDim S256x257 (![] : Fin 0 → Fin S256x257.rank)
  reducesTo_S256x257_S_d0_1 : S256x257.ReducesTo [0, 1] S_
  bcast_S_S257 : S_.BroadcastsInDim S257 (![] : Fin 0 → Fin S257.rank)
  reducesTo_S257_S_d0 : S257.ReducesTo [0] S_
  bcast_S_S265x256 : S_.BroadcastsInDim S265x256 (![] : Fin 0 → Fin S265x256.rank)
  reducesTo_S265x256_S_d0_1 : S265x256.ReducesTo [0, 1] S_
  bcast_S_S256x30 : S_.BroadcastsInDim S256x30 (![] : Fin 0 → Fin S256x30.rank)
  reducesTo_S256x30_S_d0_1 : S256x30.ReducesTo [0, 1] S_
  bcast_S_S30 : S_.BroadcastsInDim S30 (![] : Fin 0 → Fin S30.rank)
  reducesTo_S30_S_d0 : S30.ReducesTo [0] S_

variable [Facts]

def fn_part2 {F : FTy → Type} [FloatOps F] (main_arg7 : FVec F S256x30 .f32) (main_arg8 : FVec F S30 .f32) (main_v33 : IVec S_ 1) : IVec S_ 1 :=
  let main_v34 : FVec F S256x30 .f32 := Host.absf main_arg7
  let main_cst_12 : FVec F S_ .f32 := constant S_ .f32 0x7F800000#32
  let main_v35 : FVec F S256x30 .f32 := broadcastInDim S256x30 ![] bcast_S_S256x30 main_cst_12
  let main_v36 : IVec S256x30 1 := cmpf .olt main_v34 main_v35
  let main_c_13 : IVec S_ 1 := constantI S_ 1 1#1
  let main_v37 : IVec S_ 1 := (fun x v => Host.reduce IntOp.andi x v reducesTo_S256x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  main_v43

def fn_part1 {F : FTy → Type} [FloatOps F] (main_arg4 : FVec F S257 .f32) (main_arg5 : FVec F S265x256 .f32) (main_arg6 : FVec F S256 .f32) (main_arg7 : FVec F S256x30 .f32) (main_arg8 : FVec F S30 .f32) (main_v13 : IVec S_ 1) (main_v16 : IVec S256x257 1) : IVec S_ 1 :=
  let main_c_5 : IVec S_ 1 := constantI S_ 1 1#1
  let main_v17 : IVec S_ 1 := (fun x v => Host.reduce IntOp.andi x v reducesTo_S256x257_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  let main_v24 : FVec F S265x256 .f32 := Host.absf main_arg5
  let main_cst_8 : FVec F S_ .f32 := constant S_ .f32 0x7F800000#32
  let main_v25 : FVec F S265x256 .f32 := broadcastInDim S265x256 ![] bcast_S_S265x256 main_cst_8
  let main_v26 : IVec S265x256 1 := cmpf .olt main_v24 main_v25
  let main_c_9 : IVec S_ 1 := constantI S_ 1 1#1
  let main_v27 : IVec S_ 1 := (fun x v => Host.reduce IntOp.andi x v reducesTo_S265x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x520 .f32) (main_arg1 : FVec F S8x256 .f32) (main_arg2 : FVec F S256 .f32) (main_arg3 : FVec F S256x257 .f32) (main_arg4 : FVec F S257 .f32) (main_arg5 : FVec F S265x256 .f32) (main_arg6 : FVec F S256 .f32) (main_arg7 : FVec F S256x30 .f32) (main_arg8 : FVec F S30 .f32) : IVec S_ 1 :=
  let main_v0 : FVec F S8192x520 .f32 := Host.absf main_arg0
  let main_cst : FVec F S_ .f32 := constant S_ .f32 0x7F800000#32
  let main_v1 : FVec F S8192x520 .f32 := broadcastInDim S8192x520 ![] bcast_S_S8192x520 main_cst
  let main_v2 : IVec S8192x520 1 := cmpf .olt main_v0 main_v1
  let main_c : IVec S_ 1 := constantI S_ 1 1#1
  let main_v3 : IVec S_ 1 := (fun x v => Host.reduce IntOp.andi x v reducesTo_S8192x520_S_d0_1 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x257 .f32 := Host.absf main_arg3
  let main_cst_4 : FVec F S_ .f32 := constant S_ .f32 0x7F800000#32
  let main_v15 : FVec F S256x257 .f32 := broadcastInDim S256x257 ![] bcast_S_S256x257 main_cst_4
  let main_v16 : IVec S256x257 1 := cmpf .olt main_v14 main_v15
  fn_part1 (F := F) main_arg4 main_arg5 main_arg6 main_arg7 main_arg8 main_v13 main_v16
-- ==== Kernel.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S8192x8 : Shape := ⟨2, ![8192, 8]⟩
abbrev S8192x512 : Shape := ⟨2, ![8192, 512]⟩
abbrev S8192x64x8 : Shape := ⟨3, ![8192, 64, 8]⟩
abbrev S1x256 : Shape := ⟨2, ![1, 256]⟩
abbrev S256x256 : Shape := ⟨2, ![256, 256]⟩
abbrev S256x1 : Shape := ⟨2, ![256, 1]⟩
abbrev S1 : Shape := ⟨1, ![1]⟩
abbrev S1x1 : Shape := ⟨2, ![1, 1]⟩
abbrev S1x30 : Shape := ⟨2, ![1, 30]⟩
abbrev S8192x30 : Shape := ⟨2, ![8192, 30]⟩
abbrev S128x8 : Shape := ⟨2, ![128, 8]⟩
abbrev S128x64x8 : Shape := ⟨3, ![128, 64, 8]⟩
abbrev S128x30 : Shape := ⟨2, ![128, 30]⟩
abbrev S128x256 : Shape := ⟨2, ![128, 256]⟩
abbrev S128x1 : Shape := ⟨2, ![128, 1]⟩
abbrev S128x16x8 : Shape := ⟨3, ![128, 16, 8]⟩
abbrev S128x16 : Shape := ⟨2, ![128, 16]⟩
abbrev S2048x8 : Shape := ⟨2, ![2048, 8]⟩
abbrev S2048x256 : Shape := ⟨2, ![2048, 256]⟩
abbrev S2048 : Shape := ⟨1, ![2048]⟩
abbrev S2048x1 : Shape := ⟨2, ![2048, 1]⟩
abbrev S128x16x256 : Shape := ⟨3, ![128, 16, 256]⟩
abbrev S128x16x1 : Shape := ⟨3, ![128, 16, 1]⟩

abbrev nBuf : Space → Nat
  | .hbm => 33
  | .vmem => 18
  | .smem => 0
  | _ => 0

abbrev bufTy : (tb : Table) → Fin (tcTables nBuf tb) → BufTy
  | .hbm, ⟨0, _⟩ => ⟨S8192x520, .f32⟩
  | .hbm, ⟨1, _⟩ => ⟨S8x256, .f32⟩
  | .hbm, ⟨2, _⟩ => ⟨S256, .f32⟩
  | .hbm, ⟨3, _⟩ => ⟨S256x257, .f32⟩
  | .hbm, ⟨4, _⟩ => ⟨S257, .f32⟩
  | .hbm, ⟨5, _⟩ => ⟨S265x256, .f32⟩
  | .hbm, ⟨6, _⟩ => ⟨S256, .f32⟩
  | .hbm, ⟨7, _⟩ => ⟨S256x30, .f32⟩
  | .hbm, ⟨8, _⟩ => ⟨S30, .f32⟩
  | .hbm, ⟨9, _⟩ => ⟨S8192x8, .f32⟩
  | .hbm, ⟨10, _⟩ => ⟨S8192x512, .f32⟩
  | .hbm, ⟨11, _⟩ => ⟨S8192x64x8, .f32⟩
  | .hbm, ⟨12, _⟩ => ⟨S8x256, .bf16⟩
  | .hbm, ⟨13, _⟩ => ⟨S1x256, .f32⟩
  | .hbm, ⟨14, _⟩ => ⟨S256x256, .f32⟩
  | .hbm, ⟨15, _⟩ => ⟨S256x256, .bf16⟩
  | .hbm, ⟨16, _⟩ => ⟨S256x1, .f32⟩
  | .hbm, ⟨17, _⟩ => ⟨S1x256, .f32⟩
  | .hbm, ⟨18, _⟩ => ⟨S1x256, .bf16⟩
  | .hbm, ⟨19, _⟩ => ⟨S256, .f32⟩
  | .hbm, ⟨20, _⟩ => ⟨S1x256, .f32⟩
  | .hbm, ⟨21, _⟩ => ⟨S1, .f32⟩
  | .hbm, ⟨22, _⟩ => ⟨S1x1, .f32⟩
  | .hbm, ⟨23, _⟩ => ⟨S8x256, .f32⟩
  | .hbm, ⟨24, _⟩ => ⟨S8x256, .bf16⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S1x256, .bf16⟩
  | .hbm, ⟨29, _⟩ => ⟨S1x256, .f32⟩
  | .hbm, ⟨30, _⟩ => ⟨S256x30, .bf16⟩
  | .hbm, ⟨31, _⟩ => ⟨S1x30, .f32⟩
  | .hbm, ⟨32, _⟩ => ⟨S8192x30, .f32⟩
  | .local _ .vmem, ⟨0, _⟩ => ⟨S128x8, .f32⟩
  | .local _ .vmem, ⟨1, _⟩ => ⟨S128x8, .f32⟩
  | .local _ .vmem, ⟨2, _⟩ => ⟨S128x64x8, .f32⟩
  | .local _ .vmem, ⟨3, _⟩ => ⟨S128x64x8, .f32⟩
  | .local _ .vmem, ⟨4, _⟩ => ⟨S8x256, .bf16⟩
  | .local _ .vmem, ⟨5, _⟩ => ⟨S1x256, .f32⟩
  | .local _ .vmem, ⟨6, _⟩ => ⟨S256x256, .bf16⟩
  | .local _ .vmem, ⟨7, _⟩ => ⟨S1x256, .bf16⟩
  | .local _ .vmem, ⟨8, _⟩ => ⟨S1x256, .f32⟩
  | .local _ .vmem, ⟨9, _⟩ => ⟨S1x1, .f32⟩
  | .local _ .vmem, ⟨10, _⟩ => ⟨S8x256, .bf16⟩
  | .local _ .vmem, ⟨11, _⟩ => ⟨S256x256, .bf16⟩
  | .local _ .vmem, ⟨12, _⟩ => ⟨S1x256, .bf16⟩
  | .local _ .vmem, ⟨13, _⟩ => ⟨S1x256, .f32⟩
  | .local _ .vmem, ⟨14, _⟩ => ⟨S256x30, .bf16⟩
  | .local _ .vmem, ⟨15, _⟩ => ⟨S1x30, .f32⟩
  | .local _ .vmem, ⟨16, _⟩ => ⟨S128x30, .f32⟩
  | .local _ .vmem, ⟨17, _⟩ => ⟨S128x30, .f32⟩
  | _, _ => ⟨S8192x520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c16_i32 : BitVec 32 := 16#32
  let v50 : BitVec 32 := Scalar.muli arg16 c16_i32
  v50
def k0_off1 (k0_t1 : Fin k0_t1_loop.trips) : Fin 3 → Nat :=
  let c0_33 : Index := 0#32
  let c0_i32 : BitVec 32 := 0#32
  let c1_i32 : BitVec 32 := 1#32
  let arg16 : BitVec 32 := Scf.iv c0_i32 c1_i32 k0_t1
  let c16_i32 : BitVec 32 := 16#32
  let v50 : BitVec 32 := Scalar.muli arg16 c16_i32
  let v51 : BitVec 32 := v50
  let v52 : Index := Scalar.indexCast v51
  let c0_34 : Index := 0#32
  ![0, v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x30 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x30 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x30 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S8192x520_S8192x8_0_0 : S8192x520.Slices ![0, 0] S8192x8
  slices_S8192x520_S8192x512_0_8 : S8192x520.Slices ![0, 8] S8192x512
  shapeCasts_S8192x512_S8192x64x8 : S8192x512.ShapeCasts S8192x64x8
  bitsLt_bf16_f32 : FTy.bits .bf16 < FTy.bits .f32
  shapeCasts_S256_S1x256 : S256.ShapeCasts S1x256
  slices_S256x257_S256x256_0_0 : S256x257.Slices ![0, 0] S256x256
  slices_S256x257_S256x1_0_256 : S256x257.Slices ![0, 256] S256x1
  shapeCasts_S256x1_S1x256 : S256x1.ShapeCasts S1x256
  slices_S257_S256_0 : S257.Slices ![0] S256
  slices_S257_S1_256 : S257.Slices ![256] S1
  shapeCasts_S1_S1x1 : S1.ShapeCasts S1x1
  slices_S265x256_S8x256_0_0 : S265x256.Slices ![0, 0] S8x256
  slices_S265x256_S256x256_8_0 : S265x256.Slices ![8, 0] S256x256
  slices_S265x256_S1x256_264_0 : S265x256.Slices ![264, 0] S1x256
  shapeCasts_S30_S1x30 : S30.ShapeCasts S1x30
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S128x16x8 : 0 < S128x16x8.numel
  shapeCasts_S128x16x8_S128x16x8 : S128x16x8.ShapeCasts S128x16x8
  natLt_1_32 : 1 < 32
  reduces_S128x16x8_S128x16 : S128x16x8.Reduces [2] S128x16
  shapeCasts_S128x16x8_S2048x8 : S128x16x8.ShapeCasts S2048x8
  broadcasts_S1x256_S2048x256 : S1x256.Broadcasts S2048x256
  reduces_S2048x256_S2048 : S2048x256.Reduces [1] S2048
  shapeCasts_S2048_S2048x1 : S2048.ShapeCasts S2048x1
  broadcasts_S1x1_S2048x1 : S1x1.Broadcasts S2048x1
  shapeCasts_S2048x256_S128x16x256 : S2048x256.ShapeCasts S128x16x256
  shapeCasts_S2048x1_S128x16x1 : S2048x1.ShapeCasts S128x16x1
  shapeCasts_S128x16_S128x16x1 : S128x16.ShapeCasts S128x16x1
  broadcasts_S128x16x1_S128x16x256 : S128x16x1.Broadcasts S128x16x256
  reduces_S128x16x256_S128x256 : S128x16x256.Reduces [1] S128x256
  reduces_S128x16x1_S128x1 : S128x16x1.Reduces [1] S128x1
  broadcasts_S128x1_S128x256 : S128x1.Broadcasts S128x256
  broadcasts_S1x256_S128x256 : S1x256.Broadcasts S128x256
  inb_S256x30_S256x30_0_0 : ∀ a, (![0, 0] : Fin 2 → Nat) a + S256x30.size a ≤ S256x30.size a
  h_S256x30 : 0 < S256x30.numel
  shapeCasts_S256x30_S256x30 : S256x30.ShapeCasts S256x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S128x30 : S1x30.Broadcasts S128x30
  inb_S128x30_S128x30_0_0 : ∀ a, (![0, 0] : Fin 2 → Nat) a + S128x30.size a ≤ S128x30.size a
  h_S128x30 : 0 < S128x30.numel
  dot_S2048x8_S8x256_S2048x256_1_0_0_1_n_n_wf : DotDims.WF S2048x8 S8x256 S2048x256 [1] [0] [0] [1] [] []
  dot_S2048x256_S256x256_S2048x256_1_0_0_1_n_n_wf : DotDims.WF S2048x256 S256x256 S2048x256 [1] [0] [0] [1] [] []
  dot_S128x8_S8x256_S128x256_1_0_0_1_n_n_wf : DotDims.WF S128x8 S8x256 S128x256 [1] [0] [0] [1] [] []
  dot_S128x256_S256x256_S128x256_1_0_0_1_n_n_wf : DotDims.WF S128x256 S256x256 S128x256 [1] [0] [0] [1] [] []
  dot_S128x256_S256x30_S128x30_1_0_0_1_n_n_wf : DotDims.WF S128x256 S256x30 S128x30 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S128x16x8.size a ≤ S128x64x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8.size a ≤ S8192x8.size a
  hwx0_0 : ∀ i : grid0.Coords, EltTy.bits .f32 = 32 ∨ (Rect.block (s := S8192x8) S128x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x8.size a ≤ S8192x64x8.size a
  hwx0_1 : ∀ i : grid0.Coords, EltTy.bits .f32 = 32 ∨ (Rect.block (s := S8192x64x8) S128x64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .bf16 = 32 ∨ (Rect.block (s := S8x256) S8x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S8x256.size a
  hwx0_8 : ∀ i : grid0.Coords, EltTy.bits .bf16 = 32 ∨ (Rect.block (s := S8x256) S8x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .bf16 = 32 ∨ (Rect.block (s := S1x256) S1x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x30.size a ≤ S256x30.size a
  hwx0_12 : ∀ i : grid0.Coords, EltTy.bits .bf16 = 32 ∨ (Rect.block (s := S256x30) S256x30.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x30.size a ≤ S1x30.size a
  hwx0_13 : ∀ i : grid0.Coords, EltTy.bits .f32 = 32 ∨ (Rect.block (s := S1x30) S1x30.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x30.size a ≤ S8192x30.size a
  hwx0_14 : ∀ i : grid0.Coords, EltTy.bits .f32 = 32 ∨ (Rect.block (s := S8192x30) S128x30.size (cc0_transform_14 i) (hinb0_14 i)).WholeWords (EltTy.packing .f32)

variable [Facts₀]

def dot_S2048x8_S8x256_S2048x256_1_0_0_1_n_n : DotDims S2048x8 S8x256 S2048x256 where
  lhsContracting := [1]
  rhsContracting := [0]
  lhsNonContracting := [0]
  rhsNonContracting := [1]
  lhsBatch := []
  rhsBatch := []
  wf := dot_S2048x8_S8x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S128x8_S8x256_S128x256_1_0_0_1_n_n : DotDims S128x8 S8x256 S128x256 where
  lhsContracting := [1]
  rhsContracting := [0]
  lhsNonContracting := [0]
  rhsNonContracting := [1]
  lhsBatch := []
  rhsBatch := []
  wf := dot_S128x8_S8x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x30_S128x30_1_0_0_1_n_n : DotDims S128x256 S256x30 S128x30 where
  lhsContracting := [1]
  rhsContracting := [0]
  lhsNonContracting := [0]
  rhsNonContracting := [1]
  lhsBatch := []
  rhsBatch := []
  wf := dot_S128x256_S256x30_S128x30_1_0_0_1_n_n_wf

abbrev win0_0 : Pipeline.Window sig grid0 :=
  Pipeline.Window.ofSpec (Memref.whole main_v0) S128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x64x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S8x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S256x30.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S1x30.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S128x30.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S8192x8 : Shape := ⟨2, ![8192, 8]⟩
abbrev S8192x512 : Shape := ⟨2, ![8192, 512]⟩
abbrev S8192x64x8 : Shape := ⟨3, ![8192, 64, 8]⟩
abbrev S_ : Shape := ⟨0, ![]⟩
abbrev S8192x64 : Shape := ⟨2, ![8192, 64]⟩
abbrev S8192x64x256 : Shape := ⟨3, ![8192, 64, 256]⟩
abbrev S1x1x256 : Shape := ⟨3, ![1, 1, 256]⟩
abbrev S8192x64x257 : Shape := ⟨3, ![8192, 64, 257]⟩
abbrev S1x1x257 : Shape := ⟨3, ![1, 1, 257]⟩
abbrev S8192x64x1 : Shape := ⟨3, ![8192, 64, 1]⟩
abbrev S8192x257 : Shape := ⟨2, ![8192, 257]⟩
abbrev S8192x265 : Shape := ⟨2, ![8192, 265]⟩
abbrev S8192x256 : Shape := ⟨2, ![8192, 256]⟩
abbrev S1x256 : Shape := ⟨2, ![1, 256]⟩
abbrev S8192x30 : Shape := ⟨2, ![8192, 30]⟩
abbrev S1x30 : Shape := ⟨2, ![1, 30]⟩

abbrev nBuf : Space → Nat
  | .hbm => 50
  | .vmem => 0
  | .smem => 0
  | _ => 0

abbrev bufTy : (tb : Table) → Fin (tcTables nBuf tb) → BufTy
  | .hbm, ⟨0, _⟩ => ⟨S8192x520, .f32⟩
  | .hbm, ⟨1, _⟩ => ⟨S8x256, .f32⟩
  | .hbm, ⟨2, _⟩ => ⟨S256, .f32⟩
  | .hbm, ⟨3, _⟩ => ⟨S256x257, .f32⟩
  | .hbm, ⟨4, _⟩ => ⟨S257, .f32⟩
  | .hbm, ⟨5, _⟩ => ⟨S265x256, .f32⟩
  | .hbm, ⟨6, _⟩ => ⟨S256, .f32⟩
  | .hbm, ⟨7, _⟩ => ⟨S256x30, .f32⟩
  | .hbm, ⟨8, _⟩ => ⟨S30, .f32⟩
  | .hbm, ⟨9, _⟩ => ⟨S8192x8, .f32⟩
  | .hbm, ⟨10, _⟩ => ⟨S8192x512, .f32⟩
  | .hbm, ⟨11, _⟩ => ⟨S8192x64x8, .f32⟩
  | .hbm, ⟨12, _⟩ => ⟨S_, .f32⟩
  | .hbm, ⟨13, _⟩ => ⟨S8192x64x8, .f32⟩
  | .hbm, ⟨14, _⟩ => ⟨S8192x64x8, .i1⟩
  | .hbm, ⟨15, _⟩ => ⟨S_, .i1⟩
  | .hbm, ⟨16, _⟩ => ⟨S8192x64, .i1⟩
  | .hbm, ⟨17, _⟩ => ⟨S8192x64, .i1⟩
  | .hbm, ⟨18, _⟩ => ⟨S8192x64x256, .f32⟩
  | .hbm, ⟨19, _⟩ => ⟨S1x1x256, .f32⟩
  | .hbm, ⟨20, _⟩ => ⟨S8192x64x256, .f32⟩
  | .hbm, ⟨21, _⟩ => ⟨S8192x64x256, .f32⟩
  | .hbm, ⟨22, _⟩ => ⟨S_, .f32⟩
  | .hbm, ⟨23, _⟩ => ⟨S8192x64x256, .f32⟩
  | .hbm, ⟨24, _⟩ => ⟨S8192x64x256, .f32⟩
  | .hbm, ⟨25, _⟩ => ⟨S8192x64x257, .f32⟩
  | .hbm, ⟨26, _⟩ => ⟨S1x1x257, .f32⟩
  | .hbm, ⟨27, _⟩ => ⟨S8192x64x257, .f32⟩
  | .hbm, ⟨28, _⟩ => ⟨S8192x64x257, .f32⟩
  | .hbm, ⟨29, _⟩ => ⟨S_, .f32⟩
  | .hbm, ⟨30, _⟩ => ⟨S8192x64x257, .f32⟩
  | .hbm, ⟨31, _⟩ => ⟨S8192x64x257, .f32⟩
  | .hbm, ⟨32, _⟩ => ⟨S8192x64x1, .i1⟩
  | .hbm, ⟨33, _⟩ => ⟨S8192x64x1, .f32⟩
  | .hbm, ⟨34, _⟩ => ⟨S8192x64x257, .f32⟩
  | .hbm, ⟨35, _⟩ => ⟨S8192x64x257, .f32⟩
  | .hbm, ⟨36, _⟩ => ⟨S_, .f32⟩
  | .hbm, ⟨37, _⟩ => ⟨S8192x257, .f32⟩
  | .hbm, ⟨38, _⟩ => ⟨S8192x265, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x30, .f32⟩
  | .hbm, ⟨47, _⟩ => ⟨S1x30, .f32⟩
  | .hbm, ⟨48, _⟩ => ⟨S8192x30, .f32⟩
  | .hbm, ⟨49, _⟩ => ⟨S8192x30, .f32⟩
  | _, _ => ⟨S8192x520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_cst : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  slices_S8192x520_S8192x8_0_0 : S8192x520.Slices ![0, 0] S8192x8
  slices_S8192x520_S8192x512_0_8 : S8192x520.Slices ![0, 8] S8192x512
  shapeCasts_S8192x512_S8192x64x8 : S8192x512.ShapeCasts S8192x64x8
  bcast_S_S8192x64x8 : S_.BroadcastsInDim S8192x64x8 (![] : Fin 0 → Fin S8192x64x8.rank)
  reducesTo_S8192x64x8_S8192x64_d2 : S8192x64x8.ReducesTo [2] S8192x64
  h_S_ : 0 < S_.numel
  bcast_S256_S1x1x256_2 : S256.BroadcastsInDim S1x1x256 (![2] : Fin 1 → Fin S1x1x256.rank)
  bcast_S1x1x256_S8192x64x256_0_1_2 : S1x1x256.BroadcastsInDim S8192x64x256 (![0, 1, 2] : Fin 3 → Fin S8192x64x256.rank)
  bcast_S_S8192x64x256 : S_.BroadcastsInDim S8192x64x256 (![] : Fin 0 → Fin S8192x64x256.rank)
  bcast_S257_S1x1x257_2 : S257.BroadcastsInDim S1x1x257 (![2] : Fin 1 → Fin S1x1x257.rank)
  bcast_S1x1x257_S8192x64x257_0_1_2 : S1x1x257.BroadcastsInDim S8192x64x257 (![0, 1, 2] : Fin 3 → Fin S8192x64x257.rank)
  bcast_S_S8192x64x257 : S_.BroadcastsInDim S8192x64x257 (![] : Fin 0 → Fin S8192x64x257.rank)
  bcast_S8192x64_S8192x64x1_0_1 : S8192x64.BroadcastsInDim S8192x64x1 (![0, 1] : Fin 2 → Fin S8192x64x1.rank)
  bcast_S8192x64x1_S8192x64x257_0_1_2 : S8192x64x1.BroadcastsInDim S8192x64x257 (![0, 1, 2] : Fin 3 → Fin S8192x64x257.rank)
  reducesTo_S8192x64x257_S8192x257_d1 : S8192x64x257.ReducesTo [1] S8192x257
  concatenates_S8192x8_S8192x257_S8192x265_d1 : Shape.Concatenates [S8192x8, S8192x257] S8192x265 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S30_S1x30_1 : S30.BroadcastsInDim S1x30 (![1] : Fin 1 → Fin S1x30.rank)
  bcast_S1x30_S8192x30_0_1 : S1x30.BroadcastsInDim S8192x30 (![0, 1] : Fin 2 → Fin S8192x30.rank)
  dot_S8192x64x8_S8x256_S8192x64x256_2_0_01_1_n_n_wf : DotDims.WF S8192x64x8 S8x256 S8192x64x256 [2] [0] [0, 1] [1] [] []
  dot_S8192x64x256_S256x257_S8192x64x257_2_0_01_1_n_n_wf : DotDims.WF S8192x64x256 S256x257 S8192x64x257 [2] [0] [0, 1] [1] [] []
  dot_S8192x265_S265x256_S8192x256_1_0_0_1_n_n_wf : DotDims.WF S8192x265 S265x256 S8192x256 [1] [0] [0] [1] [] []
  dot_S8192x256_S256x30_S8192x30_1_0_0_1_n_n_wf : DotDims.WF S8192x256 S256x30 S8192x30 [1] [0] [0] [1] [] []

variable [Facts₀]

def dot_S8192x64x8_S8x256_S8192x64x256_2_0_01_1_n_n : DotDims S8192x64x8 S8x256 S8192x64x256 where
  lhsContracting := [2]
  rhsContracting := [0]
  lhsNonContracting := [0, 1]
  rhsNonContracting := [1]
  lhsBatch := []
  rhsBatch := []
  wf := dot_S8192x64x8_S8x256_S8192x64x256_2_0_01_1_n_n_wf
def dot_S8192x64x256_S256x257_S8192x64x257_2_0_01_1_n_n : DotDims S8192x64x256 S256x257 S8192x64x257 where
  lhsContracting := [2]
  rhsContracting := [0]
  lhsNonContracting := [0, 1]
  rhsNonContracting := [1]
  lhsBatch := []
  rhsBatch := []
  wf := dot_S8192x64x256_S256x257_S8192x64x257_2_0_01_1_n_n_wf
def dot_S8192x265_S265x256_S8192x256_1_0_0_1_n_n : DotDims S8192x265 S265x256 S8192x256 where
  lhsContracting := [1]
  rhsContracting := [0]
  lhsNonContracting := [0]
  rhsNonContracting := [1]
  lhsBatch := []
  rhsBatch := []
  wf := dot_S8192x265_S265x256_S8192x256_1_0_0_1_n_n_wf
def dot_S8192x256_S256x30_S8192x30_1_0_0_1_n_n : DotDims S8192x256 S256x30 S8192x30 where
  lhsContracting := [1]
  rhsContracting := [0]
  lhsNonContracting := [0]
  rhsNonContracting := [1]
  lhsBatch := []
  rhsBatch := []
  wf := dot_S8192x256_S256x30_S8192x30_1_0_0_1_n_n_wf

class Facts : Prop extends Facts₀ where

variable [Facts]
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.KDots.lean ====
/-
  The kernel body's five matrix products, each read at an entry: entry `(p, c)` of a product of an
  `[n, K]` matrix with a `[K, m]` matrix, accumulated into zero, is the sum over `k` of
  `lhs (p, k) * rhs (k, c)` on the extended reals.
-/
import proofs.«143022_j9594956939555_2_alg».proof.Proof.Gen.KernelIdeal
import proofs.«143022_j9594956939555_2_alg».proof.Proof.LibMatmul

noncomputable section

namespace Cert.KernelIdeal.Dots

open Cert.KernelIdeal Cert.KernelIdeal.Facts₀ Idealize.ShloMosaic Idealize.ShloMosaic.ValueIdx

/-- Entry `(p, c)` of the first encoder layer's product, over the 2048 (row, neighbour) pairs of a group. -/
theorem dotHid {φ₁ φ₂ : FTy} (lhs : FVec Ideal S2048x8 φ₁) (rhs : FVec Ideal S8x256 φ₂) (p : Fin 2048) (c : Fin 256) :
    matmul dot_S2048x8_S8x256_S2048x256_1_0_0_1_n_n none lhs rhs (constant S2048x256 .f32 0x00000000#32) (ix2 p c)
      = ∑ k : Fin 8, lhs (ix2 p k) * rhs (ix2 k c) :=
  Cert.PlainDot.matmul_zero_apply dot_S2048x8_S8x256_S2048x256_1_0_0_1_n_n none rfl rfl
    (fun i q => by
      unfold DotDims.lhsIdx
      rw [dif_neg (show ¬(0 : Fin S2048x8.rank) ∈ dot_S2048x8_S8x256_S2048x256_1_0_0_1_n_n.lhsBatch by decide), dif_pos (show (0 : Fin S2048x8.rank) ∈ dot_S2048x8_S8x256_S2048x256_1_0_0_1_n_n.lhsNonContracting by decide)]
      rfl)
    (fun i q => dot_S2048x8_S8x256_S2048x256_1_0_0_1_n_n.lhsIdx_val_of_single rfl i q)
    (fun i q => dot_S2048x8_S8x256_S2048x256_1_0_0_1_n_n.rhsIdx_val_of_single rfl i q)
    (fun i q => by
      unfold DotDims.rhsIdx
      rw [dif_neg (show ¬(1 : Fin S8x256.rank) ∈ dot_S2048x8_S8x256_S2048x256_1_0_0_1_n_n.rhsBatch by decide), dif_pos (show (1 : Fin S8x256.rank) ∈ dot_S2048x8_S8x256_S2048x256_1_0_0_1_n_n.rhsNonContracting by decide)]
      rfl)
    lhs rhs p c

/-- Entry `(p, c)` of the second encoder layer's product. -/
theorem dotEnc {φ₁ φ₂ : FTy} (lhs : FVec Ideal S2048x256 φ₁) (rhs : FVec Ideal S256x256 φ₂) (p : Fin 2048) (c : Fin 256) :
    matmul dot_S2048x256_S256x256_S2048x256_1_0_0_1_n_n none lhs rhs (constant S2048x256 .f32 0x00000000#32) (ix2 p c)
      = ∑ k : Fin 256, lhs (ix2 p k) * rhs (ix2 k c) :=
  Cert.PlainDot.matmul_zero_apply dot_S2048x256_S256x256_S2048x256_1_0_0_1_n_n none rfl rfl
    (fun i q => by
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl)
    (fun i q => dot_S2048x256_S256x256_S2048x256_1_0_0_1_n_n.lhsIdx_val_of_single rfl i q)
    (fun i q => dot_S2048x256_S256x256_S2048x256_1_0_0_1_n_n.rhsIdx_val_of_single rfl i q)
    (fun i q => by
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
    lhs rhs p c

/-- Entry `(p, c)` of the head's product with the own state. -/
theorem dotSelf {φ₁ φ₂ : FTy} (lhs : FVec Ideal S128x8 φ₁) (rhs : FVec Ideal S8x256 φ₂) (p : Fin 128) (c : Fin 256) :
    matmul dot_S128x8_S8x256_S128x256_1_0_0_1_n_n none lhs rhs (constant S128x256 .f32 0x00000000#32) (ix2 p c)
      = ∑ k : Fin 8, lhs (ix2 p k) * rhs (ix2 k c) :=
  Cert.PlainDot.matmul_zero_apply dot_S128x8_S8x256_S128x256_1_0_0_1_n_n none rfl rfl
    (fun i q => by
      unfold DotDims.lhsIdx
      rw [dif_neg (show ¬(0 : Fin S128x8.rank) ∈ dot_S128x8_S8x256_S128x256_1_0_0_1_n_n.lhsBatch by decide), dif_pos (show (0 : Fin S128x8.rank) ∈ dot_S128x8_S8x256_S128x256_1_0_0_1_n_n.lhsNonContracting by decide)]
      rfl)
    (fun i q => dot_S128x8_S8x256_S128x256_1_0_0_1_n_n.lhsIdx_val_of_single rfl i q)
    (fun i q => dot_S128x8_S8x256_S128x256_1_0_0_1_n_n.rhsIdx_val_of_single rfl i q)
    (fun i q => by
      unfold DotDims.rhsIdx
      rw [dif_neg (show ¬(1 : Fin S8x256.rank) ∈ dot_S128x8_S8x256_S128x256_1_0_0_1_n_n.rhsBatch by decide), dif_pos (show (1 : Fin S8x256.rank) ∈ dot_S128x8_S8x256_S128x256_1_0_0_1_n_n.rhsNonContracting by decide)]
      rfl)
    lhs rhs p c

/-- Entry `(p, c)` of the head's product with the pooled encoding. -/
theorem dotPool {φ₁ φ₂ : FTy} (lhs : FVec Ideal S128x256 φ₁) (rhs : FVec Ideal S256x256 φ₂) (p : Fin 128) (c : Fin 256) :
    matmul dot_S128x256_S256x256_S128x256_1_0_0_1_n_n none lhs rhs (constant S128x256 .f32 0x00000000#32) (ix2 p c)
      = ∑ k : Fin 256, lhs (ix2 p k) * rhs (ix2 k c) :=
  Cert.PlainDot.matmul_zero_apply dot_S128x256_S256x256_S128x256_1_0_0_1_n_n none rfl rfl
    (fun i q => by
      unfold DotDims.lhsIdx
      rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
      rfl)
    (fun i q => dot_S128x256_S256x256_S128x256_1_0_0_1_n_n.lhsIdx_val_of_single rfl i q)
    (fun i q => dot_S128x256_S256x256_S128x256_1_0_0_1_n_n.rhsIdx_val_of_single rfl i q)
    (fun i q => by
      unfold DotDims.rhsIdx
      rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
      rfl)
    lhs rhs p c

/-- Entry `(p, c)` of the output layer's product. -/
theorem dotOut {φ₁ φ₂ : FTy} (lhs : FVec Ideal S128x256 φ₁) (rhs : FVec Ideal S256x30 φ₂) (p : Fin 128) (c : Fin 30) :
    matmul dot_S128x256_S256x30_S128x30_1_0_0_1_n_n none lhs rhs (constant S128x30 .f32 0x00000000#32) (ix2 p c)
      = ∑ k : Fin 256, lhs (ix2 p k) * rhs (ix2 k c) :=
  Cert.PlainDot.matmul_zero_apply dot_S128x256_S256x30_S128x30_1_0_0_1_n_n none rfl rfl
    (fun i q => by
      unfold DotDims.lhsIdx
      rw [dif_neg (show ¬(0 : Fin S128x256.rank) ∈ dot_S128x256_S256x30_S128x30_1_0_0_1_n_n.lhsBatch by decide), dif_pos (show (0 : Fin S128x256.rank) ∈ dot_S128x256_S256x30_S128x30_1_0_0_1_n_n.lhsNonContracting by decide)]
      rfl)
    (fun i q => dot_S128x256_S256x30_S128x30_1_0_0_1_n_n.lhsIdx_val_of_single rfl i q)
    (fun i q => dot_S128x256_S256x30_S128x30_1_0_0_1_n_n.rhsIdx_val_of_single rfl i q)
    (fun i q => by
      unfold DotDims.rhsIdx
      rw [dif_neg (show ¬(1 : Fin S256x30.rank) ∈ dot_S128x256_S256x30_S128x30_1_0_0_1_n_n.rhsBatch by decide), dif_pos (show (1 : Fin S256x30.rank) ∈ dot_S128x256_S256x30_S128x30_1_0_0_1_n_n.rhsNonContracting by decide)]
      rfl)
    lhs rhs p c

end Cert.KernelIdeal.Dots

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibReduceLast.lean ====
/-
  A reduction along the LAST axis of an `[a, b, c]` array: over entry `(p, q)` of the result, position
  `k` of the reduced axis is the entry `(p, q, k)` of the operand.
-/
import Idealize.ShloMosaic.Lib.ValueIdx
import Idealize.ShloMosaic.PureOps.Reduce

noncomputable section

namespace Cert.Rank3Last

open Idealize.ShloMosaic Idealize.ShloMosaic.ValueIdx

/-- Over entry `(p, q)` of the result, position `k` of a reduction along the last axis is `(p, q, k)`. -/
theorem lift_last {a b c : ℕ} (h : Shape.Reduces ⟨3, ![a, b, c]⟩ [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

end Cert.Rank3Last

end
-- ==== Proof.Spec.lean ====
/-
  The network both programs compute, on the extended reals, one batch row at a time.

  A batch row holds its own state `s0` (8 numbers) and 64 neighbours `A n` (8 numbers each).  A neighbour
  is encoded by two affine layers with a positive part after each, `hid` then `enc` (257 features), and is
  dropped when any of its coordinates is the sentinel value; the encodings of the kept neighbours are
  summed (`pooled`).  The own state followed by the pooled encoding (8 + 257 = 265 features, `feat`) goes
  through one more layer with a positive part (`hq`) and a last affine layer (`q`).

  Two regroupings of sums are proved here, each only by commutativity and associativity of addition:
  a sum over the 64 neighbours is the sum of four partial sums over 16 consecutive neighbours, taken in
  order from zero; and a sum over the 265 features is the sum over the first 8, the next 256 and the
  last one.  The two ways of computing the keep-flag of a neighbour (counting sentinel coordinates and
  comparing the count with zero; or-ing the comparisons and negating) are shown to be the same number.
-/
import Idealize.ShloMosaic.PureOps.Ideal.Laws

noncomputable section

namespace Cert.Spec

open Idealize.ShloMosaic

/-- The sentinel coordinate value that marks a neighbour as absent. -/
abbrev sentinel : EReal := Ideal.ofBits .f32 0xBF800000#32

section Net

variable (W1 : Fin 8 → Fin 256 → EReal) (b1 : Fin 256 → EReal)
  (W2 : Fin 256 → Fin 257 → EReal) (b2 : Fin 257 → EReal)
  (Qw1 : Fin 265 → Fin 256 → EReal) (Qb1 : Fin 256 → EReal)
  (Qw2 : Fin 256 → Fin 30 → EReal) (Qb2 : Fin 30 → EReal)

/-- First encoder layer of one neighbour. -/
def hid (a : Fin 8 → EReal) (h : Fin 256) : EReal := max ((∑ c, a c * W1 c h) + b1 h) 0

/-- Second encoder layer of one neighbour. -/
def enc (a : Fin 8 → EReal) (e : Fin 257) : EReal := max ((∑ h, hid W1 b1 a h * W2 h e) + b2 e) 0

/-- The keep-flag of a neighbour: 0 when some coordinate is the sentinel, else 1. -/
def valid (a : Fin 8 → EReal) : EReal := if ∃ c, a c = sentinel then 0 else 1

/-- One neighbour's contribution to feature `e` of the pooled encoding. -/
def contrib (a : Fin 8 → EReal) (e : Fin 257) : EReal := enc W1 b1 W2 b2 a e * valid a

/-- The pooled encoding: the kept neighbours' encodings summed. -/
def pooled (A : Fin 64 → Fin 8 → EReal) (e : Fin 257) : EReal := ∑ n, contrib W1 b1 W2 b2 (A n) e

/-- The 265 input features of the head: the own state, then the pooled encoding. -/
def feat (s0 : Fin 8 → EReal) (A : Fin 64 → Fin 8 → EReal) (x : Fin 265) : EReal :=
  if h : x.val < 8 then s0 ⟨x.val, h⟩ else pooled W1 b1 W2 b2 A ⟨x.val - 8, by omega⟩

/-- The head's hidden layer. -/
def hq (s0 : Fin 8 → EReal) (A : Fin 64 → Fin 8 → EReal) (j : Fin 256) : EReal :=
  max ((∑ x, feat W1 b1 W2 b2 s0 A x * Qw1 x j) + Qb1 j) 0

/-- The head's output. -/
def q (s0 : Fin 8 → EReal) (A : Fin 64 → Fin 8 → EReal) (a : Fin 30) : EReal :=
  (∑ j, hq W1 b1 W2 b2 Qw1 Qb1 s0 A j * Qw2 j a) + Qb2 a

end Net

/-! ## Sums regrouped -/

/-- Neighbour `q` of the `k`-th group of sixteen. -/
abbrev agent (k : Fin 4) (q : Fin 16) : Fin 64 := ⟨16 * k.val + q.val, by omega⟩

/-- A sum over 64 neighbours is the sum over four groups of sixteen. -/
theorem sum_agents (g : Fin 64 → EReal) : ∑ n, g n = ∑ k : Fin 4, ∑ q : Fin 16, g (agent k q) := by
  rw [← Fintype.sum_prod_type']
  refine (Fintype.sum_equiv (finProdFinEquiv (m := 4) (n := 16)) _ _ fun kq => ?_).symm
  refine congrArg g (Fin.ext ?_)
  show 16 * kq.1.val + kq.2.val = kq.2.val + 16 * kq.1.val
  omega

/-- Four partial sums accumulated in order from zero are the whole sum. -/
theorem chunked (g : Fin 64 → EReal) :
    (((0 + ∑ q : Fin 16, g (agent 0 q)) + ∑ q : Fin 16, g (agent 1 q)) + ∑ q : Fin 16, g (agent 2 q))
      + ∑ q : Fin 16, g (agent 3 q) = ∑ n, g n := by
  rw [sum_agents, Fin.sum_univ_four, zero_add]

/-- A sum over the 265 features: the first 8, the next 256, the last. -/
theorem sum_feat (F : Fin 265 → EReal) :
    ∑ x, F x = ((∑ c : Fin 8, F ⟨c.val, by omega⟩) + ∑ e : Fin 256, F ⟨8 + e.val, by omega⟩) + F ⟨264, by omega⟩ := by
  have h1 := Fin.sum_univ_add (M := EReal) (a := 8) (b := 257) (fun i => F ⟨i.val, i.isLt⟩)
  have h2 := Fin.sum_univ_castSucc (M := EReal) (n := 256) (fun i : Fin 257 => F ⟨8 + i.val, by omega⟩)
  have h0 : ∑ x, F x = ∑ i : Fin (8 + 257), F ⟨i.val, i.isLt⟩ := rfl
  rw [h0, h1]
  have h3 : (∑ i : Fin 257, F ⟨(Fin.natAdd 8 i).val, (Fin.natAdd 8 i).isLt⟩) = ∑ i : Fin 257, F ⟨8 + i.val, by omega⟩ := rfl
  rw [h3, h2, add_assoc]
  rfl

end Cert.Spec

end
-- ==== Proof.Flag.lean ====
/-
  The keep-flag of a neighbour, computed two ways, is the number `Spec.valid`: 1 when no coordinate is
  the sentinel, 0 otherwise.

  One way counts: each coordinate's comparison with the sentinel is a bit, widened to a word and read as
  an integer (0 or 1); the eight are added; the sum is compared with zero, and that bit is again read as
  an integer.  A sum of zeros and ones vanishes exactly when every term does.

  The other way is logical: the eight comparison bits are or-ed from `false`, the result is negated and
  read as an unsigned integer.  An or of bits is set exactly when some bit is.
-/
import proofs.«143022_j9594956939555_2_alg».proof.Proof.Spec
import Idealize.ShloMosaic.PureOps.Reduce

noncomputable section

namespace Cert.Spec

open Idealize.ShloMosaic

/-- The equality comparison's bit is set exactly at equal arguments. -/
theorem cmp_oeq_eq_one (x y : EReal) : Ideal.cmp .oeq x y = 1#1 ↔ x = y := by
  unfold Ideal.cmp
  by_cases h : x = y <;> simp [h]

theorem bit_toInt_int : ∀ b : BitVec 1, (b.setWidth 32).toInt = if b = 1#1 then 1 else 0 := by decide

/-- A bit widened to a word and read as a signed integer is 1 or 0. -/
theorem bit_toInt (b : BitVec 1) : (((b.setWidth 32).toInt : ℝ) : EReal) = if b = 1#1 then 1 else 0 := by
  rw [bit_toInt_int]; split <;> simp

theorem bit_toNat_nat : ∀ b : BitVec 1, (~~~b).toNat = if b = 1#1 then 0 else 1 := by decide

/-- A negated bit read as an unsigned integer is 0 or 1. -/
theorem notbit_toNat (b : BitVec 1) : ((((~~~b).toNat : ℕ) : ℝ) : EReal) = if b = 1#1 then 0 else 1 := by
  rw [bit_toNat_nat]; split <;> simp

/-- The keep-flag by counting. -/
def validCount (a : Fin 8 → EReal) : EReal :=
  ((((Ideal.cmp .oeq (∑ c, ((((Ideal.cmp .oeq (a c) sentinel).setWidth 32).toInt : ℝ) : EReal)) (Ideal.ofBits .f32 0x00000000#32)).setWidth 32).toInt : ℝ) : EReal)

theorem validCount_eq (a : Fin 8 → EReal) : validCount a = valid a := by
  have hterm : ∀ c, ((((Ideal.cmp .oeq (a c) sentinel).setWidth 32).toInt : ℝ) : EReal)
      = if a c = sentinel then 1 else 0 := by
    intro c
    rw [bit_toInt]
    by_cases h : a c = sentinel
    · rw [if_pos ((cmp_oeq_eq_one _ _).2 h), if_pos h]
    · rw [if_neg (fun h' => h ((cmp_oeq_eq_one _ _).1 h')), if_neg h]
  have hsum : (∑ c, (if a c = sentinel then (1 : EReal) else 0)) = 0 ↔ ¬ ∃ c, a c = sentinel := by
    rw [Finset.sum_eq_zero_iff_of_nonneg (fun c _ => by split <;> simp)]
    constructor
    · rintro h ⟨c, hc⟩
      have := h c (Finset.mem_univ c)
      rw [if_pos hc] at this
      exact one_ne_zero this
    · intro h c _
      rw [if_neg (fun hc => h ⟨c, hc⟩)]
  unfold validCount valid
  simp only [hterm]
  rw [Ideal.ofBits_zero_f32, bit_toInt]
  by_cases h : ∃ c, a c = sentinel
  · rw [if_pos h, if_neg]
    intro h'
    exact (hsum.1 ((cmp_oeq_eq_one _ _).1 h')) h
  · rw [if_neg h, if_pos]
    exact (cmp_oeq_eq_one _ _).2 (hsum.2 h)

/-- An or of bits, from `false`, is set exactly when some bit is. -/
theorem fold_ori_eq_one {ι : Type} [DecidableEq ι] (s : Finset ι) (g : ι → BitVec 1) :
    s.fold IntOp.ori 0#1 g = 1#1 ↔ ∃ c ∈ s, g c = 1#1 := by
  induction s using Finset.induction_on with
  | empty => simp
  | insert c s hc ih =>
    rw [Finset.fold_insert hc]
    have key : ∀ x y : BitVec 1, IntOp.ori x y = 1#1 ↔ x = 1#1 ∨ y = 1#1 := by decide
    rw [key, ih]
    simp [Finset.mem_insert]

/-- The keep-flag by logic. -/
def validOr (a : Fin 8 → EReal) : EReal :=
  ((((~~~ ((Finset.univ : Finset (Fin 8)).fold IntOp.ori 0#1 fun c => Ideal.cmp .oeq (a c) sentinel)).toNat : ℕ) : ℝ) : EReal)

theorem validOr_eq (a : Fin 8 → EReal) : validOr a = valid a := by
  unfold validOr valid
  rw [notbit_toNat]
  have : ((Finset.univ : Finset (Fin 8)).fold IntOp.ori 0#1 fun c => Ideal.cmp .oeq (a c) sentinel) = 1#1
      ↔ ∃ c, a c = sentinel := by
    rw [fold_ori_eq_one]
    simp [cmp_oeq_eq_one]
  by_cases h : ∃ c, a c = sentinel
  · rw [if_pos (this.2 h), if_pos h]
  · rw [if_neg (fun h' => h (this.1 h')), if_neg h]

end Cert.Spec

end
-- ==== Proof.KBody.lean ====
/-
  The kernel body's arithmetic read entry by entry, on the extended reals.

  Within one trip of the body's loop a group of 16 neighbours of each of the block's 128 rows is
  encoded at once: the pairs (row p, neighbour q of the group) are the 2048 rows `16 p + q` of a flat
  matrix.  Entry by entry the first layer is `Spec.hid` of the neighbour's coordinates, the keep-flag is
  `Spec.valid` of them, and the trip adds to the two running sums (the 256 leading features; the last
  feature, computed as a row sum instead of a matrix column) the group's sum of kept encodings.  After
  the loop the head is applied to the own state and the two sums.
-/
import proofs.«143022_j9594956939555_2_alg».proof.Proof.Gen.KernelIdeal.Skeleton
import proofs.«143022_j9594956939555_2_alg».proof.Proof.KDots
import proofs.«143022_j9594956939555_2_alg».proof.Proof.LibRank3
import proofs.«143022_j9594956939555_2_alg».proof.Proof.LibColumns
import proofs.«143022_j9594956939555_2_alg».proof.Proof.LibReduceLast
import proofs.«143022_j9594956939555_2_alg».proof.Proof.Flag
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The flat row of (row p, neighbour q of the group). -/
abbrev row (p : Fin 128) (q : Fin 16) : Fin 2048 := Cert.Rank3.flat (a := 128) (b := 16) (n := 2048) rfl p q

/-! ## The layout operations of the body, each at an entry -/

variable {α : Type}

theorem flatten8 (x : S128x16x8.Idx → α) (p : Fin 128) (q : Fin 16) (c : Fin 8) :
    shapeCast S2048x8 x shapeCasts_S128x16x8_S2048x8 (ix2 (row p q) c) = x (ix3 p q c) :=
  Cert.Rank3.shapeCast_abc_nc_apply (n := 2048) rfl x _ p q c

theorem unflatten256 (x : S2048x256.Idx → α) (p : Fin 128) (q : Fin 16) (e : Fin 256) :
    shapeCast S128x16x256 x shapeCasts_S2048x256_S128x16x256 (ix3 p q e) = x (ix2 (row p q) e) :=
  Cert.Rank3.shapeCast_nc_abc_apply (n := 2048) rfl x _ p q e

theorem unflatten1 (x : S2048x1.Idx → α) (p : Fin 128) (q : Fin 16) (u : Fin 1) :
    shapeCast S128x16x1 x shapeCasts_S2048x1_S128x16x1 (ix3 p q u) = x (ix2 (row p q) u) :=
  Cert.Rank3.shapeCast_nc_abc_apply (n := 2048) rfl x _ p q u

theorem unitLast (x : S128x16.Idx → α) (p : Fin 128) (q : Fin 16) (u : Fin 1) :
    shapeCast S128x16x1 x shapeCasts_S128x16_S128x16x1 (ix3 p q u) = x (ix2 p q) :=
  Cert.Rank3.shapeCast_ab_ab1_apply x _ p q u

theorem column (x : S2048.Idx → α) (r : Fin 2048) (u : Fin 1) :
    shapeCast S2048x1 x shapeCasts_S2048_S2048x1 (ix2 r u) = x (ix1 r) :=
  Cert.Columns.shapeCast_a_a1_apply x _ r u

theorem bRow2048 (v : S1x256.Idx → α) (r : Fin 2048) (h : Fin 256) :
    broadcastTo S2048x256 v broadcasts_S1x256_S2048x256 (ix2 r h) = v (ix2 (0 : Fin 1) h) :=
  broadcastTo_1b_ab_apply v _ r h

theorem bRow128 (v : S1x256.Idx → α) (p : Fin 128) (j : Fin 256) :
    broadcastTo S128x256 v broadcasts_S1x256_S128x256 (ix2 p j) = v (ix2 (0 : Fin 1) j) :=
  broadcastTo_1b_ab_apply v _ p j

theorem bRow30 (v : S1x30.Idx → α) (p : Fin 128) (a : Fin 30) :
    broadcastTo S128x30 v broadcasts_S1x30_S128x30 (ix2 p a) = v (ix2 (0 : Fin 1) a) :=
  broadcastTo_1b_ab_apply v _ p a

theorem bOne (v : S1x1.Idx → α) (r : Fin 2048) (u : Fin 1) :
    broadcastTo S2048x1 v broadcasts_S1x1_S2048x1 (ix2 r u) = v (ix2 (0 : Fin 1) (0 : Fin 1)) :=
  Cert.Columns.broadcastTo_11_ab_apply v _ r u

theorem bCol (v : S128x1.Idx → α) (p : Fin 128) (j : Fin 256) :
    broadcastTo S128x256 v broadcasts_S128x1_S128x256 (ix2 p j) = v (ix2 p (0 : Fin 1)) :=
  Cert.Columns.broadcastTo_a1_ab_apply v _ p j

theorem bFlag (v : S128x16x1.Idx → α) (p : Fin 128) (q : Fin 16) (e : Fin 256) :
    broadcastTo S128x16x256 v broadcasts_S128x16x1_S128x16x256 (ix3 p q e) = v (ix3 p q (0 : Fin 1)) :=
  Cert.Rank3.broadcastTo_ab1_abc_apply v _ p q e

/-! ## The body's sums, each at an entry -/

theorem sumCoords (v : FVec Ideal S128x16x8 .f32) (hφ : FKind.Formats .f32) (hacc : (0x00000000#32 : BitVec 32) = FKind.add.neutral .f32 hφ) (p : Fin 128) (q : Fin 16) :
    multiReduction .add [2] S128x16 v 0x00000000#32 reduces_S128x16x8_S128x16 hφ hacc (ix2 p q)
      = ∑ c : Fin 8, v (ix3 p q c) :=
  (Ideal.multiReduction_add_single v 0x00000000#32 reduces_S128x16x8_S128x16 hφ hacc (ix2 p q)).trans
    (Finset.sum_congr rfl fun k _ => congrArg v (Cert.Rank3Last.lift_last reduces_S128x16x8_S128x16 p q k))

theorem sumGroup256 (v : FVec Ideal S128x16x256 .f32) (hφ : FKind.Formats .f32) (hacc : (0x00000000#32 : BitVec 32) = FKind.add.neutral .f32 hφ) (p : Fin 128) (e : Fin 256) :
    multiReduction .add [1] S128x256 v 0x00000000#32 reduces_S128x16x256_S128x256 hφ hacc (ix2 p e)
      = ∑ q : Fin 16, v (ix3 p q e) :=
  (Ideal.multiReduction_add_single v 0x00000000#32 reduces_S128x16x256_S128x256 hφ hacc (ix2 p e)).trans
    (Finset.sum_congr rfl fun k _ => congrArg v (Cert.Rank3.lift_mid reduces_S128x16x256_S128x256 p e k))

theorem sumGroup1 (v : FVec Ideal S128x16x1 .f32) (hφ : FKind.Formats .f32) (hacc : (0x00000000#32 : BitVec 32) = FKind.add.neutral .f32 hφ) (p : Fin 128) (u : Fin 1) :
    multiReduction .add [1] S128x1 v 0x00000000#32 reduces_S128x16x1_S128x1 hφ hacc (ix2 p u)
      = ∑ q : Fin 16, v (ix3 p q u) :=
  (Ideal.multiReduction_add_single v 0x00000000#32 reduces_S128x16x1_S128x1 hφ hacc (ix2 p u)).trans
    (Finset.sum_congr rfl fun k _ => congrArg v (Cert.Rank3.lift_mid reduces_S128x16x1_S128x1 p u k))

theorem sumRow (v : FVec Ideal S2048x256 .f32) (hφ : FKind.Formats .f32) (hacc : (0x00000000#32 : BitVec 32) = FKind.add.neutral .f32 hφ) (r : Fin 2048) :
    multiReduction .add [1] S2048 v 0x00000000#32 reduces_S2048x256_S2048 hφ hacc (ix1 r)
      = ∑ h : Fin 256, v (ix2 r h) :=
  (Ideal.multiReduction_add_single v 0x00000000#32 reduces_S2048x256_S2048 hφ hacc (ix1 r)).trans
    (Finset.sum_congr rfl fun k _ => congrArg v (Cert.Columns.lift_row reduces_S2048x256_S2048 r k))

end Cert.KernelIdeal.Body

end
-- ==== Proof.KPay.lean ====
/-
  The kernel body's named values read at an entry, in the vocabulary of the specification.

  For one trip of the loop, with `v53` the group's slab of neighbours (row p, neighbour q, coordinate c):
  the first layer at flat row `16 p + q` is `Spec.hid` of neighbour (p, q); the keep-flag at (p, q) is
  `Spec.valid` of it; the trip adds to the running sum of feature `e` the group's sum over q of the
  positive part of the second layer times the flag — for the 256 leading features through a matrix
  product, for the last feature through a row sum against one weight row.  After the loop: the head's
  three terms and the output layer.
-/
import proofs.«143022_j9594956939555_2_alg».proof.Proof.KBody

noncomputable section

namespace Cert.KernelIdeal.Pay

open Cert.KernelIdeal Cert.KernelIdeal.Gen Idealize.ShloMosaic Idealize.ShloMosaic.ValueIdx
open Cert.KernelIdeal.Body

/-- The zero word of the scalar unit is the number zero. -/
theorem szero : Scalar.ofBits (F := Ideal) .f32 0x00000000#32 = (0 : EReal) := Ideal.ofBits_zero_f32

section Trip

variable (v3 : FVec Ideal S8x256 .bf16) (v5 : FVec Ideal S1x256 .f32) (v53 : Vec Ideal S128x16x8 .f32)

/-- The first layer at the flat row of (p, q). -/
theorem hidRow (p : Fin 128) (q : Fin 16) (h : Fin 256) :
    k0_pay3 v3 v5 v53 (ix2 (row p q) h) = Cert.Spec.hid (fun c h => v3 (ix2 c h)) (fun h => v5 (ix2 (0 : Fin 1) h)) (fun c => v53 (ix3 p q c)) h := by
  unfold k0_pay3 k0_pay2 Cert.Spec.hid
  simp only [maximumf_apply, addf_apply, Dots.dotHid, bRow2048, broadcast_apply, truncf_apply, flatten8,
    shapeCast_self, szero]

/-- The keep-flag of (p, q). -/
theorem flag (p : Fin 128) (q : Fin 16) (u : Fin 1) :
    k0_pay4 v53 (ix3 p q u) = Cert.Spec.valid (fun c => v53 (ix3 p q c)) := by
  unfold k0_pay4 k0_pay2
  refine (unitLast _ p q u).trans ?_
  refine (congrArg (fun s : EReal => FloatOps.sitofp (F := Ideal) .f32 (BitVec.setWidth 32
    (FloatOps.cmpf (F := Ideal) (φ := .f32) .oeq s (Scalar.ofBits (F := Ideal) .f32 0x00000000#32))))
    (sumCoords _ _ _ p q)).trans ?_
  simp only [sitofp_apply, extui_apply, cmpf_apply, broadcast_apply, shapeCast_self]
  exact Cert.Spec.validCount_eq _

/-- One trip's addition to the running sum of a leading feature. -/
theorem tripMain (v7 : FVec Ideal S256x256 .bf16) (v12 : FVec Ideal S1x256 .f32) (acc : FVec Ideal S128x256 .f32)
    (p : Fin 128) (e : Fin 256) :
    k0_pay5 v3 v5 v7 v12 acc v53 (ix2 p e)
      = acc (ix2 p e) + ∑ q : Fin 16,
          max ((∑ h : Fin 256, Cert.Spec.hid (fun c h => v3 (ix2 c h)) (fun h => v5 (ix2 (0 : Fin 1) h)) (fun c => v53 (ix3 p q c)) h * v7 (ix2 h e)) + v12 (ix2 (0 : Fin 1) e)) 0 * Cert.Spec.valid (fun c => v53 (ix3 p q c)) := by
  unfold k0_pay5
  refine (congrArg (fun s : EReal => acc (ix2 p e) + s) (sumGroup256 _ _ _ p e)).trans ?_
  simp only [mulf_apply, unflatten256, maximumf_apply, addf_apply, Dots.dotEnc, bRow2048, broadcast_apply,
    truncf_apply, bFlag, hidRow, flag, szero]

/-- One trip's addition to the running sum of the last feature. -/
theorem tripLast (v10 : FVec Ideal S1x256 .f32) (v14 : FVec Ideal S1x1 .f32) (acc : FVec Ideal S128x1 .f32)
    (p : Fin 128) (u : Fin 1) :
    k0_pay6 v3 v5 v10 v14 acc v53 (ix2 p u)
      = acc (ix2 p u) + ∑ q : Fin 16,
          max ((∑ h : Fin 256, Cert.Spec.hid (fun c h => v3 (ix2 c h)) (fun h => v5 (ix2 (0 : Fin 1) h)) (fun c => v53 (ix3 p q c)) h * v10 (ix2 (0 : Fin 1) h)) + v14 (ix2 (0 : Fin 1) (0 : Fin 1))) 0 * Cert.Spec.valid (fun c => v53 (ix3 p q c)) := by
  unfold k0_pay6
  refine (congrArg (fun s : EReal => acc (ix2 p u) + s) (sumGroup1 _ _ _ p u)).trans ?_
  refine congrArg _ (Finset.sum_congr rfl fun q _ => ?_)
  simp only [mulf_apply, unflatten1, maximumf_apply, addf_apply, column, bOne, broadcast_apply, flag, szero]
  refine (congrArg (fun s : EReal => max (s + v14 (ix2 (0 : Fin 1) (0 : Fin 1))) 0 * Cert.Spec.valid (fun c => v53 (ix3 p q c)))
    (sumRow _ _ _ (row p q))).trans ?_
  simp only [mulf_apply, hidRow, bRow2048]

end Trip

/-! ## Loads passed on unchanged, and the loop's starting values -/

theorem pass7 (v2 : Vec Ideal S8x256 .bf16) : k0_pay7 v2 = v2 := by unfold k0_pay7; exact shapeCast_self _ _
theorem pass8 (v4 : Vec Ideal S1x256 .f32) : k0_pay8 v4 = v4 := by unfold k0_pay8; exact shapeCast_self _ _
theorem pass9 (v6 : Vec Ideal S256x256 .bf16) : k0_pay9 v6 = v6 := by unfold k0_pay9; exact shapeCast_self _ _
theorem pass10 (v8 : Vec Ideal S1x256 .bf16) (i : S1x256.Idx) : k0_pay10 v8 i = v8 i := by
  unfold k0_pay10; simp only [extf_apply, shapeCast_self]
theorem pass11 (v11 : Vec Ideal S1x256 .f32) : k0_pay11 v11 = v11 := by unfold k0_pay11; exact shapeCast_self _ _
theorem pass12 (v13 : Vec Ideal S1x1 .f32) : k0_pay12 v13 = v13 := by unfold k0_pay12; exact shapeCast_self _ _
theorem start13 (i : S128x256.Idx) : k0_pay13 (F := Ideal) i = 0 := by
  unfold k0_pay13; simp only [broadcast_apply, szero]
theorem start14 (i : S128x1.Idx) : k0_pay14 (F := Ideal) i = 0 := by
  unfold k0_pay14; simp only [broadcast_apply, szero]

/-! ## The head -/

theorem selfTerm (v0 : Vec Ideal S128x8 .f32) (v20 : Vec Ideal S8x256 .bf16) (p : Fin 128) (j : Fin 256) :
    k0_pay15 v0 v20 (ix2 p j) = ∑ c : Fin 8, v0 (ix2 p c) * v20 (ix2 c j) := by
  unfold k0_pay15
  simp only [Dots.dotSelf, truncf_apply, shapeCast_self]

theorem poolTerm (s : FVec Ideal S128x256 .f32) (v24 : Vec Ideal S256x256 .bf16) (p : Fin 128) (j : Fin 256) :
    k0_pay16 s v24 (ix2 p j) = ∑ e : Fin 256, s (ix2 p e) * v24 (ix2 e j) := by
  unfold k0_pay16
  simp only [Dots.dotPool, truncf_apply, shapeCast_self]

theorem lastWeight (v27 : Vec Ideal S1x256 .bf16) (i : S1x256.Idx) : k0_pay17 v27 i = v27 i := by
  unfold k0_pay17; simp only [extf_apply, shapeCast_self]

theorem lastCol (s : FVec Ideal S128x1 .f32) (p : Fin 128) (j : Fin 256) :
    k0_pay18 s (ix2 p j) = s (ix2 p (0 : Fin 1)) := by
  unfold k0_pay18; simp only [bCol]

theorem head (v22 v26 : FVec Ideal S128x256 .f32) (v29 : FVec Ideal S1x256 .f32) (v30 : FVec Ideal S128x256 .f32)
    (v33 : Vec Ideal S1x256 .f32) (v42 : Vec Ideal S256x30 .bf16) (v44 : Vec Ideal S1x30 .f32) (p : Fin 128) (a : Fin 30) :
    k0_pay1 v22 v26 v29 v30 v33 v42 v44 (ix2 p a)
      = (∑ j : Fin 256, max ((((v22 (ix2 p j) + v26 (ix2 p j)) + v30 (ix2 p j) * v29 (ix2 (0 : Fin 1) j))
            + v33 (ix2 (0 : Fin 1) j))) 0 * v42 (ix2 j a)) + v44 (ix2 (0 : Fin 1) a) := by
  unfold k0_pay1
  simp only [addf_apply, Dots.dotOut, bRow30, shapeCast_self, truncf_apply, maximumf_apply, broadcast_apply, mulf_apply,
    bRow128, szero]

end Cert.KernelIdeal.Pay

end
-- ==== Proof.KLoop.lean ====
/-
  What the kernel body leaves in the output block, as one pure term of the blocks it loads.

  The body's loop carries two running sums through four trips; trip `k` reads the slab of neighbours
  `16 k … 16 k + 15` of every row and adds that group's contribution (`tripStep`).  The run's own
  definitions of one trip and of the whole body are opened here, once: the carried value after the
  four trips is `tripStep 3 (tripStep 2 (tripStep 1 (tripStep 0 start)))` (`sums`), and the block the
  body stores is the head applied to the own state and those sums (`blockOut`).
-/
import proofs.«143022_j9594956939555_2_alg».proof.Proof.Gen.KernelIdeal.Frame
import Idealize.ShloMosaic.Lib.Pipeline.Value

set_option maxRecDepth 65536

noncomputable section

namespace Cert.KernelIdeal.Loop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slab of neighbours `16 k … 16 k + 15` of every row of the block. -/
def slab (x1 : Vec F S128x64x8 .f32) (k : Fin k0_t1_loop.trips) : Vec F S128x16x8 .f32 :=
  View.ld x1 (Rect.unit (k0_off1 k) S128x16x8.size (k0_off1_inb k))

/-- One trip: the two running sums with group `k`'s contributions added. -/
def tripStep (x1 : Vec F S128x64x8 .f32) (x2 : Vec F S8x256 .bf16) (x3 : Vec F S1x256 .f32) (x4 : Vec F S256x256 .bf16) (x5 : Vec F S1x256 .bf16) (x6 : Vec F S1x256 .f32) (x7 : Vec F S1x1 .f32) (k : Fin k0_t1_loop.trips)
    (acc : FVec F S128x256 .f32 × FVec F S128x1 .f32) : FVec F S128x256 .f32 × FVec F S128x1 .f32 :=
  (k0_pay5 (k0_pay7 x2) (k0_pay8 x3) (k0_pay9 x4) (k0_pay11 x6) acc.1 (slab x1 k),
   k0_pay6 (k0_pay7 x2) (k0_pay8 x3) (k0_pay10 x5) (k0_pay12 x7) acc.2 (slab x1 k))

/-- The running sums after the four trips. -/
def sums (x1 : Vec F S128x64x8 .f32) (x2 : Vec F S8x256 .bf16) (x3 : Vec F S1x256 .f32) (x4 : Vec F S256x256 .bf16) (x5 : Vec F S1x256 .bf16) (x6 : Vec F S1x256 .f32) (x7 : Vec F S1x1 .f32) : FVec F S128x256 .f32 × FVec F S128x1 .f32 :=
  tripStep x1 x2 x3 x4 x5 x6 x7 ⟨3, by decide⟩ (tripStep x1 x2 x3 x4 x5 x6 x7 ⟨2, by decide⟩
    (tripStep x1 x2 x3 x4 x5 x6 x7 ⟨1, by decide⟩ (tripStep x1 x2 x3 x4 x5 x6 x7 ⟨0, by decide⟩ (k0_pay13, k0_pay14))))

/-- The block the body stores. -/
def blockOut (x0 : Vec F S128x8 .f32) (x1 : Vec F S128x64x8 .f32) (x2 : Vec F S8x256 .bf16) (x3 : Vec F S1x256 .f32) (x4 : Vec F S256x256 .bf16) (x5 : Vec F S1x256 .bf16) (x6 : Vec F S1x256 .f32) (x7 : Vec F S1x1 .f32) (x8 : Vec F S8x256 .bf16) (x9 : Vec F S256x256 .bf16) (x10 : Vec F S1x256 .bf16) (x11 : Vec F S1x256 .f32) (x12 : Vec F S256x30 .bf16) (x13 : Vec F S1x30 .f32) : FVec F S128x30 .f32 :=
  k0_pay1 (k0_pay15 x0 x8) (k0_pay16 (sums x1 x2 x3 x4 x5 x6 x7).1 x9) (k0_pay17 x10)
    (k0_pay18 (sums x1 x2 x3 x4 x5 x6 x7).2) x11 x12 x13

section Opened

variable (𝒱 : Variants) (c : Dev nD) (bd : Option 𝒱.V) (i : grid0.Coords) (arg1 : Memref sig .tc .vmem S128x8 .f32) (harg1 : arg1.IsWhole) (arg2 : Memref sig .tc .vmem S128x64x8 .f32) (harg2 : arg2.IsWhole) (arg3 : Memref sig .tc .vmem S8x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .bf16) (harg6 : arg6.IsWhole) (arg7 : Memref sig .tc .vmem S1x256 .f32) (harg7 : arg7.IsWhole) (arg8 : Memref sig .tc .vmem S1x1 .f32) (harg8 : arg8.IsWhole) (arg9 : Memref sig .tc .vmem S8x256 .bf16) (harg9 : arg9.IsWhole) (arg10 : Memref sig .tc .vmem S256x256 .bf16) (harg10 : arg10.IsWhole) (arg11 : Memref sig .tc .vmem S1x256 .bf16) (harg11 : arg11.IsWhole) (arg12 : Memref sig .tc .vmem S1x256 .f32) (harg12 : arg12.IsWhole) (arg13 : Memref sig .tc .vmem S256x30 .bf16) (harg13 : arg13.IsWhole) (arg14 : Memref sig .tc .vmem S1x30 .f32) (harg14 : arg14.IsWhole) (arg15 : Memref sig .tc .vmem S128x30 .f32) (harg15 : arg15.IsWhole)
variable (x1 : Vec F S128x64x8 .f32) (x2 : Vec F S8x256 .bf16) (x3 : Vec F S1x256 .f32) (x4 : Vec F S256x256 .bf16) (x5 : Vec F S1x256 .bf16) (x6 : Vec F S1x256 .f32) (x7 : Vec F S1x1 .f32)

/-- One trip of the run yields `tripStep` of the carried value. -/
theorem trip_eq (k : Fin k0_t1_loop.trips) (acc : FVec F S128x256 .f32 × FVec F S128x1 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) k acc = tripStep x1 x2 x3 x4 x5 x6 x7 k acc := by
  unfold tripR_k0_t1 trip_k0_t1
  dsimp only
  unfold trip_k0_t1.sl.r trip_k0_t1.sl.r_1 tripStep slab
  simp only [View.readAt_eq_ld, harg2.read_unread]

/-- The carried value after the four trips. -/
theorem st_four (init : FVec F S128x256 .f32 × FVec F S128x1 .f32) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init 4
      = tripStep x1 x2 x3 x4 x5 x6 x7 ⟨3, by decide⟩ (tripStep x1 x2 x3 x4 x5 x6 x7 ⟨2, by decide⟩
          (tripStep x1 x2 x3 x4 x5 x6 x7 ⟨1, by decide⟩ (tripStep x1 x2 x3 x4 x5 x6 x7 ⟨0, by decide⟩ init))) := by
  have h1 := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init ⟨0, by decide⟩
  have h2 := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init ⟨1, by decide⟩
  have h3 := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init ⟨2, by decide⟩
  have h4 := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init ⟨3, by decide⟩
  have h0 := st_k0_t1_zero (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 (harg2.unread x1) init
  rw [trip_eq] at h1 h2 h3 h4
  exact h4.trans (by rw [h3, h2, h1, h0])

end Opened

/-- The body's output block is `blockOut` of the blocks it loads. -/
theorem out_eq (c : Dev nD) (i : grid0.Coords) (arg1 : Memref sig .tc .vmem S128x8 .f32) (harg1 : arg1.IsWhole) (arg2 : Memref sig .tc .vmem S128x64x8 .f32) (harg2 : arg2.IsWhole) (arg3 : Memref sig .tc .vmem S8x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .bf16) (harg6 : arg6.IsWhole) (arg7 : Memref sig .tc .vmem S1x256 .f32) (harg7 : arg7.IsWhole) (arg8 : Memref sig .tc .vmem S1x1 .f32) (harg8 : arg8.IsWhole) (arg9 : Memref sig .tc .vmem S8x256 .bf16) (harg9 : arg9.IsWhole) (arg10 : Memref sig .tc .vmem S256x256 .bf16) (harg10 : arg10.IsWhole) (arg11 : Memref sig .tc .vmem S1x256 .bf16) (harg11 : arg11.IsWhole) (arg12 : Memref sig .tc .vmem S1x256 .f32) (harg12 : arg12.IsWhole) (arg13 : Memref sig .tc .vmem S256x30 .bf16) (harg13 : arg13.IsWhole) (arg14 : Memref sig .tc .vmem S1x30 .f32) (harg14 : arg14.IsWhole) (arg15 : Memref sig .tc .vmem S128x30 .f32) (harg15 : arg15.IsWhole) (x0 : Vec F S128x8 .f32) (x1 : Vec F S128x64x8 .f32) (x2 : Vec F S8x256 .bf16) (x3 : Vec F S1x256 .f32) (x4 : Vec F S256x256 .bf16) (x5 : Vec F S1x256 .bf16) (x6 : Vec F S1x256 .f32) (x7 : Vec F S1x1 .f32) (x8 : Vec F S8x256 .bf16) (x9 : Vec F S256x256 .bf16) (x10 : Vec F S1x256 .bf16) (x11 : Vec F S1x256 .f32) (x12 : Vec F S256x30 .bf16) (x13 : Vec F S1x30 .f32) :
    out0_A_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 = blockOut x0 x1 x2 x3 x4 x5 x6 x7 x8 x9 x10 x11 x12 x13 := by
  have hz : (![0, 0] : Fin 2 → ℕ) = fun _ => 0 := by funext a; fin_cases a <;> rfl
  have ht : Scf.trips k0_t1_loop.lb k0_t1_loop.ub k0_t1_loop.st = 4 := by decide
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13)]
  unfold kernelRun0_A
  dsimp only
  sl_unfold_words
  rw [View.canon_unit_zero hz]
  simp only [View.readAt_eq_ld, Memref.IsWhole.read_unread, View.ld_unit_zero (S := S128x8) hz, View.ld_unit_zero (S := S8x256) hz,
    View.ld_unit_zero (S := S1x256) hz, View.ld_unit_zero (S := S256x256) hz, View.ld_unit_zero (S := S1x1) hz,
    View.ld_unit_zero (S := S256x30) hz, View.ld_unit_zero (S := S1x30) hz, ht, st_four]
  rfl

end Cert.KernelIdeal.Loop

end
-- ==== Proof.SpecSplit.lean ====
/-
  The head's hidden layer with its 265-term sum split as the kernel computes it: the own state's 8
  terms, the 256 leading pooled features' terms, and the last pooled feature's term.
-/
import proofs.«143022_j9594956939555_2_alg».proof.Proof.Spec

noncomputable section

namespace Cert.Spec

/-- Leading pooled feature `e` among the 257. -/
abbrev lead (e : Fin 256) : Fin 257 := ⟨e.val, by omega⟩
/-- The last pooled feature. -/
abbrev lastF : Fin 257 := ⟨256, by omega⟩
/-- Own-state feature `c` among the 265 head inputs. -/
abbrev own (c : Fin 8) : Fin 265 := ⟨c.val, by omega⟩
/-- Leading pooled feature `e` among the 265 head inputs. -/
abbrev mid (e : Fin 256) : Fin 265 := ⟨8 + e.val, by omega⟩
/-- The last head input. -/
abbrev lastX : Fin 265 := ⟨264, by omega⟩

variable (W1 : Fin 8 → Fin 256 → EReal) (b1 : Fin 256 → EReal)
  (W2 : Fin 256 → Fin 257 → EReal) (b2 : Fin 257 → EReal)
  (Qw1 : Fin 265 → Fin 256 → EReal) (Qb1 : Fin 256 → EReal)

theorem feat_own (s0 : Fin 8 → EReal) (A : Fin 64 → Fin 8 → EReal) (c : Fin 8) :
    feat W1 b1 W2 b2 s0 A (own c) = s0 c := by
  unfold feat
  rw [dif_pos (show (own c).val < 8 from c.isLt)]

theorem feat_mid (s0 : Fin 8 → EReal) (A : Fin 64 → Fin 8 → EReal) (e : Fin 256) :
    feat W1 b1 W2 b2 s0 A (mid e) = pooled W1 b1 W2 b2 A (lead e) := by
  unfold feat
  rw [dif_neg (show ¬ (mid e).val < 8 by show ¬ 8 + e.val < 8; omega)]
  refine congrArg _ (Fin.ext ?_)
  show 8 + e.val - 8 = e.val
  omega

theorem feat_last (s0 : Fin 8 → EReal) (A : Fin 64 → Fin 8 → EReal) :
    feat W1 b1 W2 b2 s0 A lastX = pooled W1 b1 W2 b2 A lastF := by
  unfold feat
  rw [dif_neg (show ¬ (lastX).val < 8 by show ¬ 264 < 8; omega)]
  exact congrArg _ (Fin.ext rfl)

/-- The head's hidden layer, its sum split in three. -/
theorem hq_split (s0 : Fin 8 → EReal) (A : Fin 64 → Fin 8 → EReal) (j : Fin 256) :
    hq W1 b1 W2 b2 Qw1 Qb1 s0 A j
      = max ((((∑ c : Fin 8, s0 c * Qw1 (own c) j) + ∑ e : Fin 256, pooled W1 b1 W2 b2 A (lead e) * Qw1 (mid e) j)
          + pooled W1 b1 W2 b2 A lastF * Qw1 lastX j) + Qb1 j) 0 := by
  unfold hq
  rw [sum_feat]
  simp only [feat_own W1 b1 W2 b2, feat_mid W1 b1 W2 b2, feat_last W1 b1 W2 b2]

end Cert.Spec

end
-- ==== Proof.KRow.lean ====
/-
  One row of the block the kernel body stores is the specification's network at that row.

  The blocks the body loads are pieces of the whole arrays: the own states and neighbours of the
  block's 128 rows, the first encoder layer whole, the second encoder layer cut into its 256 leading
  columns and its last column (and the bias likewise), the head's first layer cut into the rows that
  meet the own state, the 256 leading pooled features and the last one.  Under those relations
  (`h0` … `h13`): each trip adds its group's kept encodings, so after four trips the running sums are
  the pooled encoding (the sum over 64 neighbours regrouped as four sums over 16); and the head's
  three terms are the head's one sum over 265 features split in three.
-/
import proofs.«143022_j9594956939555_2_alg».proof.Proof.KPay
import proofs.«143022_j9594956939555_2_alg».proof.Proof.KLoop
import proofs.«143022_j9594956939555_2_alg».proof.Proof.SpecSplit

noncomputable section

namespace Cert.KernelIdeal.Row

open Cert.KernelIdeal Cert.KernelIdeal.Gen Idealize.ShloMosaic Idealize.ShloMosaic.ValueIdx
open Cert.KernelIdeal.Body Cert.KernelIdeal.Pay Cert.KernelIdeal.Loop Cert.Spec

/-- Trip `k`'s slab at (p, q, c) is neighbour `16 k + q` of row p. -/
theorem slab_apply (x1 : Vec Ideal S128x64x8 .f32) (k : Fin k0_t1_loop.trips) (kk : Fin 4) (hk : kk.val = k.val)
    (p : Fin 128) (q : Fin 16) (c : Fin 8) :
    slab x1 k (ix3 p q c) = x1 (ix3 p (agent kk q) c) := by
  unfold slab
  show x1 ((Rect.unit (s := S128x64x8) (k0_off1 k) S128x16x8.size (k0_off1_inb k)).idx (ix3 p q c)) = _
  refine congrArg x1 (funext fun a => Fin.ext ?_)
  have ho := k0_off1_eq k
  match a with
  | ⟨0, _⟩ =>
    show k0_off1 k 0 + 1 * p.val = p.val
    rw [ho]; simp
  | ⟨1, _⟩ =>
    show k0_off1 k 1 + 1 * q.val = 16 * kk.val + q.val
    rw [ho, hk]; simp
  | ⟨2, _⟩ =>
    show k0_off1 k 2 + 1 * c.val = c.val
    rw [ho]; simp

/-- A trip adds group `k`'s kept encodings to the running sum of a leading feature. -/
theorem stepMain (x1 : Vec Ideal S128x64x8 .f32) (x2 : Vec Ideal S8x256 .bf16) (x3 : Vec Ideal S1x256 .f32)
    (x4 : Vec Ideal S256x256 .bf16) (x5 : Vec Ideal S1x256 .bf16) (x6 : Vec Ideal S1x256 .f32) (x7 : Vec Ideal S1x1 .f32)
    (W1 : Fin 8 → Fin 256 → EReal) (b1 : Fin 256 → EReal) (W2 : Fin 256 → Fin 257 → EReal) (b2 : Fin 257 → EReal) (A : Fin 128 → Fin 64 → Fin 8 → EReal)
    (h1 : ∀ p n c, x1 (ix3 p n c) = A p n c) (h2 : ∀ c h, x2 (ix2 c h) = W1 c h) (h3 : ∀ h, x3 (ix2 (0 : Fin 1) h) = b1 h)
    (h4 : ∀ h e, x4 (ix2 h e) = W2 h (lead e)) (h5 : ∀ h, x5 (ix2 (0 : Fin 1) h) = W2 h lastF)
    (h6 : ∀ e, x6 (ix2 (0 : Fin 1) e) = b2 (lead e)) (h7 : x7 (ix2 (0 : Fin 1) (0 : Fin 1)) = b2 lastF)
    (k : Fin k0_t1_loop.trips) (kk : Fin 4) (hk : kk.val = k.val)
    (acc : FVec Ideal S128x256 .f32 × FVec Ideal S128x1 .f32) (p : Fin 128) (e : Fin 256) :
    (tripStep x1 x2 x3 x4 x5 x6 x7 k acc).1 (ix2 p e)
      = acc.1 (ix2 p e) + ∑ q : Fin 16, contrib W1 b1 W2 b2 (A p (agent kk q)) (lead e) := by
  show k0_pay5 (k0_pay7 x2) (k0_pay8 x3) (k0_pay9 x4) (k0_pay11 x6) acc.1 (slab x1 k) (ix2 p e) = _
  rw [pass7, pass8, pass9, pass11, tripMain]
  refine congrArg _ (Finset.sum_congr rfl fun q _ => ?_)
  unfold contrib enc
  have hn : (fun c => slab x1 k (ix3 p q c)) = A p (agent kk q) :=
    funext fun c => by rw [slab_apply x1 k kk hk, h1]
  have hW1 : (fun c h => x2 (ix2 c h)) = W1 := funext fun c => funext fun h => h2 c h
  have hb1 : (fun h => x3 (ix2 (0 : Fin 1) h)) = b1 := funext h3
  rw [hn, hW1, hb1]
  simp only [h4, h6]

/-- A trip adds group `k`'s kept encodings to the running sum of the last feature. -/
theorem stepLast (x1 : Vec Ideal S128x64x8 .f32) (x2 : Vec Ideal S8x256 .bf16) (x3 : Vec Ideal S1x256 .f32)
    (x4 : Vec Ideal S256x256 .bf16) (x5 : Vec Ideal S1x256 .bf16) (x6 : Vec Ideal S1x256 .f32) (x7 : Vec Ideal S1x1 .f32)
    (W1 : Fin 8 → Fin 256 → EReal) (b1 : Fin 256 → EReal) (W2 : Fin 256 → Fin 257 → EReal) (b2 : Fin 257 → EReal) (A : Fin 128 → Fin 64 → Fin 8 → EReal)
    (h1 : ∀ p n c, x1 (ix3 p n c) = A p n c) (h2 : ∀ c h, x2 (ix2 c h) = W1 c h) (h3 : ∀ h, x3 (ix2 (0 : Fin 1) h) = b1 h)
    (h4 : ∀ h e, x4 (ix2 h e) = W2 h (lead e)) (h5 : ∀ h, x5 (ix2 (0 : Fin 1) h) = W2 h lastF)
    (h6 : ∀ e, x6 (ix2 (0 : Fin 1) e) = b2 (lead e)) (h7 : x7 (ix2 (0 : Fin 1) (0 : Fin 1)) = b2 lastF)
    (k : Fin k0_t1_loop.trips) (kk : Fin 4) (hk : kk.val = k.val)
    (acc : FVec Ideal S128x256 .f32 × FVec Ideal S128x1 .f32) (p : Fin 128) (u : Fin 1) :
    (tripStep x1 x2 x3 x4 x5 x6 x7 k acc).2 (ix2 p u)
      = acc.2 (ix2 p u) + ∑ q : Fin 16, contrib W1 b1 W2 b2 (A p (agent kk q)) lastF := by
  show k0_pay6 (k0_pay7 x2) (k0_pay8 x3) (k0_pay10 x5) (k0_pay12 x7) acc.2 (slab x1 k) (ix2 p u) = _
  rw [pass7, pass8, pass12, tripLast]
  refine congrArg _ (Finset.sum_congr rfl fun q _ => ?_)
  unfold contrib enc
  have hn : (fun c => slab x1 k (ix3 p q c)) = A p (agent kk q) :=
    funext fun c => by rw [slab_apply x1 k kk hk, h1]
  have hW1 : (fun c h => x2 (ix2 c h)) = W1 := funext fun c => funext fun h => h2 c h
  have hb1 : (fun h => x3 (ix2 (0 : Fin 1) h)) = b1 := funext h3
  rw [hn, hW1, hb1]
  simp only [pass10, h5, h7]

/-- After the four trips the running sum of a leading feature is the pooled encoding. -/
theorem sums_main (x1 : Vec Ideal S128x64x8 .f32) (x2 : Vec Ideal S8x256 .bf16) (x3 : Vec Ideal S1x256 .f32)
    (x4 : Vec Ideal S256x256 .bf16) (x5 : Vec Ideal S1x256 .bf16) (x6 : Vec Ideal S1x256 .f32) (x7 : Vec Ideal S1x1 .f32)
    (W1 : Fin 8 → Fin 256 → EReal) (b1 : Fin 256 → EReal) (W2 : Fin 256 → Fin 257 → EReal) (b2 : Fin 257 → EReal) (A : Fin 128 → Fin 64 → Fin 8 → EReal)
    (h1 : ∀ p n c, x1 (ix3 p n c) = A p n c) (h2 : ∀ c h, x2 (ix2 c h) = W1 c h) (h3 : ∀ h, x3 (ix2 (0 : Fin 1) h) = b1 h)
    (h4 : ∀ h e, x4 (ix2 h e) = W2 h (lead e)) (h5 : ∀ h, x5 (ix2 (0 : Fin 1) h) = W2 h lastF)
    (h6 : ∀ e, x6 (ix2 (0 : Fin 1) e) = b2 (lead e)) (h7 : x7 (ix2 (0 : Fin 1) (0 : Fin 1)) = b2 lastF)
    (p : Fin 128) (e : Fin 256) :
    (sums x1 x2 x3 x4 x5 x6 x7).1 (ix2 p e) = pooled W1 b1 W2 b2 (A p) (lead e) := by
  unfold sums
  rw [stepMain x1 x2 x3 x4 x5 x6 x7 W1 b1 W2 b2 A h1 h2 h3 h4 h5 h6 h7 ⟨3, by decide⟩ 3 rfl,
    stepMain x1 x2 x3 x4 x5 x6 x7 W1 b1 W2 b2 A h1 h2 h3 h4 h5 h6 h7 ⟨2, by decide⟩ 2 rfl,
    stepMain x1 x2 x3 x4 x5 x6 x7 W1 b1 W2 b2 A h1 h2 h3 h4 h5 h6 h7 ⟨1, by decide⟩ 1 rfl,
    stepMain x1 x2 x3 x4 x5 x6 x7 W1 b1 W2 b2 A h1 h2 h3 h4 h5 h6 h7 ⟨0, by decide⟩ 0 rfl]
  show (((k0_pay13 (F := Ideal) (ix2 p e) + _) + _) + _) + _ = _
  rw [start13]
  exact chunked fun n => contrib W1 b1 W2 b2 (A p n) (lead e)

/-- After the four trips the running sum of the last feature is the pooled encoding's last entry. -/
theorem sums_last (x1 : Vec Ideal S128x64x8 .f32) (x2 : Vec Ideal S8x256 .bf16) (x3 : Vec Ideal S1x256 .f32)
    (x4 : Vec Ideal S256x256 .bf16) (x5 : Vec Ideal S1x256 .bf16) (x6 : Vec Ideal S1x256 .f32) (x7 : Vec Ideal S1x1 .f32)
    (W1 : Fin 8 → Fin 256 → EReal) (b1 : Fin 256 → EReal) (W2 : Fin 256 → Fin 257 → EReal) (b2 : Fin 257 → EReal) (A : Fin 128 → Fin 64 → Fin 8 → EReal)
    (h1 : ∀ p n c, x1 (ix3 p n c) = A p n c) (h2 : ∀ c h, x2 (ix2 c h) = W1 c h) (h3 : ∀ h, x3 (ix2 (0 : Fin 1) h) = b1 h)
    (h4 : ∀ h e, x4 (ix2 h e) = W2 h (lead e)) (h5 : ∀ h, x5 (ix2 (0 : Fin 1) h) = W2 h lastF)
    (h6 : ∀ e, x6 (ix2 (0 : Fin 1) e) = b2 (lead e)) (h7 : x7 (ix2 (0 : Fin 1) (0 : Fin 1)) = b2 lastF)
    (p : Fin 128) (u : Fin 1) :
    (sums x1 x2 x3 x4 x5 x6 x7).2 (ix2 p u) = pooled W1 b1 W2 b2 (A p) lastF := by
  unfold sums
  rw [stepLast x1 x2 x3 x4 x5 x6 x7 W1 b1 W2 b2 A h1 h2 h3 h4 h5 h6 h7 ⟨3, by decide⟩ 3 rfl,
    stepLast x1 x2 x3 x4 x5 x6 x7 W1 b1 W2 b2 A h1 h2 h3 h4 h5 h6 h7 ⟨2, by decide⟩ 2 rfl,
    stepLast x1 x2 x3 x4 x5 x6 x7 W1 b1 W2 b2 A h1 h2 h3 h4 h5 h6 h7 ⟨1, by decide⟩ 1 rfl,
    stepLast x1 x2 x3 x4 x5 x6 x7 W1 b1 W2 b2 A h1 h2 h3 h4 h5 h6 h7 ⟨0, by decide⟩ 0 rfl]
  show (((k0_pay14 (F := Ideal) (ix2 p u) + _) + _) + _) + _ = _
  rw [start14]
  exact chunked fun n => contrib W1 b1 W2 b2 (A p n) lastF

/-- Row `p` of the stored block is the network at that row. -/
theorem block_row (x0 : Vec Ideal S128x8 .f32) (x1 : Vec Ideal S128x64x8 .f32) (x2 : Vec Ideal S8x256 .bf16) (x3 : Vec Ideal S1x256 .f32)
    (x4 : Vec Ideal S256x256 .bf16) (x5 : Vec Ideal S1x256 .bf16) (x6 : Vec Ideal S1x256 .f32) (x7 : Vec Ideal S1x1 .f32)
    (x8 : Vec Ideal S8x256 .bf16) (x9 : Vec Ideal S256x256 .bf16) (x10 : Vec Ideal S1x256 .bf16) (x11 : Vec Ideal S1x256 .f32)
    (x12 : Vec Ideal S256x30 .bf16) (x13 : Vec Ideal S1x30 .f32)
    (W1 : Fin 8 → Fin 256 → EReal) (b1 : Fin 256 → EReal) (W2 : Fin 256 → Fin 257 → EReal) (b2 : Fin 257 → EReal) (Qw1 : Fin 265 → Fin 256 → EReal) (Qb1 : Fin 256 → EReal) (Qw2 : Fin 256 → Fin 30 → EReal) (Qb2 : Fin 30 → EReal)
    (s0 : Fin 128 → Fin 8 → EReal) (A : Fin 128 → Fin 64 → Fin 8 → EReal)
    (h1 : ∀ p n c, x1 (ix3 p n c) = A p n c) (h2 : ∀ c h, x2 (ix2 c h) = W1 c h) (h3 : ∀ h, x3 (ix2 (0 : Fin 1) h) = b1 h)
    (h4 : ∀ h e, x4 (ix2 h e) = W2 h (lead e)) (h5 : ∀ h, x5 (ix2 (0 : Fin 1) h) = W2 h lastF)
    (h6 : ∀ e, x6 (ix2 (0 : Fin 1) e) = b2 (lead e)) (h7 : x7 (ix2 (0 : Fin 1) (0 : Fin 1)) = b2 lastF)
    (h0 : ∀ p c, x0 (ix2 p c) = s0 p c) (h8 : ∀ c j, x8 (ix2 c j) = Qw1 (own c) j) (h9 : ∀ e j, x9 (ix2 e j) = Qw1 (mid e) j)
    (h10 : ∀ j, x10 (ix2 (0 : Fin 1) j) = Qw1 lastX j) (h11 : ∀ j, x11 (ix2 (0 : Fin 1) j) = Qb1 j)
    (h12 : ∀ j a, x12 (ix2 j a) = Qw2 j a) (h13 : ∀ a, x13 (ix2 (0 : Fin 1) a) = Qb2 a)
    (p : Fin 128) (a : Fin 30) :
    blockOut x0 x1 x2 x3 x4 x5 x6 x7 x8 x9 x10 x11 x12 x13 (ix2 p a)
      = q W1 b1 W2 b2 Qw1 Qb1 Qw2 Qb2 (s0 p) (A p) a := by
  have hm := sums_main x1 x2 x3 x4 x5 x6 x7 W1 b1 W2 b2 A h1 h2 h3 h4 h5 h6 h7 p
  have hl := sums_last x1 x2 x3 x4 x5 x6 x7 W1 b1 W2 b2 A h1 h2 h3 h4 h5 h6 h7 p (0 : Fin 1)
  unfold blockOut q
  rw [head]
  refine congrArg₂ (· + ·) (Finset.sum_congr rfl fun j _ => ?_) (h13 a)
  rw [hq_split, selfTerm, poolTerm, lastCol, lastWeight]
  simp only [h0, h8, h9, h10, h11, h12, hm, hl]

end Cert.KernelIdeal.Row

end
-- ==== Proof.Whole.lean ====
/-
  The result array as ONE function of the nine argument arrays, index by index: entry `(r, a)` is the
  network `Spec.q` applied to batch row `r` — its own state the first 8 columns of row `r` of the
  state array, its 64 neighbours the following 64 groups of 8 columns — at output `a`.
-/
import proofs.«143022_j9594956939555_2_alg».proof.Proof.SpecSplit
import Idealize.ShloMosaic.Lib.ValueIdx

noncomputable section

namespace Cert.Whole

open Idealize.ShloMosaic Idealize.ShloMosaic.ValueIdx

/-- Column of own-state coordinate `c` in the state array. -/
abbrev selfCol (c : Fin 8) : Fin 520 := ⟨c.val, by omega⟩
/-- Column of coordinate `c` of neighbour `n` in the state array. -/
abbrev nbCol (n : Fin 64) (c : Fin 8) : Fin 520 := ⟨8 + (n.val * 8 + c.val), by omega⟩

variable (s : (⟨2, ![8192, 520]⟩ : Shape).Idx → EReal) (W1 : (⟨2, ![8, 256]⟩ : Shape).Idx → EReal)
  (b1 : (⟨1, ![256]⟩ : Shape).Idx → EReal) (W2 : (⟨2, ![256, 257]⟩ : Shape).Idx → EReal)
  (b2 : (⟨1, ![257]⟩ : Shape).Idx → EReal) (Qw1 : (⟨2, ![265, 256]⟩ : Shape).Idx → EReal)
  (Qb1 : (⟨1, ![256]⟩ : Shape).Idx → EReal) (Qw2 : (⟨2, ![256, 30]⟩ : Shape).Idx → EReal)
  (Qb2 : (⟨1, ![30]⟩ : Shape).Idx → EReal)

/-- Row `r`'s own state. -/
def own (r : Fin 8192) : Fin 8 → EReal := fun c => s (ix2 r (selfCol c))
/-- Row `r`'s neighbours. -/
def nbs (r : Fin 8192) : Fin 64 → Fin 8 → EReal := fun n c => s (ix2 r (nbCol n c))

/-- Entry `(r, a)` of the result. -/
def Grow (r : Fin 8192) (a : Fin 30) : EReal :=
  Cert.Spec.q (fun c h => W1 (ix2 c h)) (fun h => b1 (ix1 h)) (fun h e => W2 (ix2 h e)) (fun e => b2 (ix1 e))
    (fun x j => Qw1 (ix2 x j)) (fun j => Qb1 (ix1 j)) (fun j a => Qw2 (ix2 j a)) (fun a => Qb2 (ix1 a))
    (own s r) (nbs s r) a

/-- The result array. -/
def G : (⟨2, ![8192, 30]⟩ : Shape).Idx → EReal :=
  fun i => Grow s W1 b1 W2 b2 Qw1 Qb1 Qw2 Qb2 ⟨(i 0).val, (i 0).isLt⟩ ⟨(i 1).val, (i 1).isLt⟩

theorem G_ix2 (r : Fin 8192) (a : Fin 30) :
    G s W1 b1 W2 b2 Qw1 Qb1 Qw2 Qb2 (ix2 r a) = Grow s W1 b1 W2 b2 Qw1 Qb1 Qw2 Qb2 r a := rfl

end Cert.Whole

end
-- ==== Proof.KWin.lean ====
/-
  What the kernel's loaded blocks hold, entry by entry, in terms of the nine argument arrays.

  Before the kernel runs, the host cuts the state array into the own states (the first 8 columns) and
  the neighbours (the other 512 columns, viewed as 64 groups of 8), cuts the second encoder layer into
  its 256 leading columns and its last column (turned into a row), its bias into 256 entries and one,
  the head's first layer into 8, 256 and 1 rows, and views each bias as one row; weights change float
  format, which is the identity on the extended reals.  At grid point `t` the own-state and neighbour
  blocks are rows `128 t … 128 t + 127`; every other block is its whole array at every point.
-/
import proofs.«143022_j9594956939555_2_alg».proof.Proof.Gen.KernelIdeal.Value
import proofs.«143022_j9594956939555_2_alg».proof.Proof.Whole
import Idealize.ShloMosaic.Lib.Pipeline.Value
import Idealize.ShloMosaic.Lib.ValueLayout
import Idealize.ShloMosaic.Lib.StableHlo.Run

set_option maxRecDepth 16384

noncomputable section

namespace Cert.KernelIdeal.Win

open Cert.KernelIdeal Cert.KernelIdeal.Gen
open Idealize.ShloMosaic Idealize.ShloMosaic.ValueIdx Idealize.ShloMosaic.TcCoe Idealize.SL.Sem Idealize.ShloMosaic.StableHlo

/-- Row `p` of grid point `t`'s block, among the 8192 batch rows. -/
def brow (t : Fin cfg0.N) (p : Fin 128) : Fin 8192 :=
  ⟨128 * t.val + p.val, by have h := t.isLt; have h64 : cfg0.N = 64 := N_0; omega⟩

theorem brow_val (t : Fin cfg0.N) (p : Fin 128) : (brow t p).val = 128 * t.val + p.val := rfl

/-- A vector viewed as one row reads, at `(0, h)`, its entry `h`. -/
theorem oneRow {α : Type} {b : ℕ} (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_a_1a_apply x h u k

/-- The printed index maps, decided over the 64 grid points: the own-state, neighbour and output blocks
    move down one block of rows per point; every other block stays at the origin. -/
theorem idx_facts : ∀ t : Fin cfg0.N,
    win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = t.val
    ∧ win0_14.index t (1 : Fin 2) = 0 :=
  (by decide +kernel : ∀ t : Fin grid0.N, _)

variable (m : (ℓ : Loc nD τ sig) → Buf (Elt Ideal) ℓ) (c : Dev nD)

/-- The array window 0 stages, as the host operations before the kernel leave it. -/
theorem V0 : (V m c main_v0 : S8192x8.Idx → EReal) = extractStridedSlice S8192x8 ![0, 0] (m ((c : Thread nD τ).loc main_arg0)) slices_S8192x520_S8192x8_0_0 := by
  dsimp only [Gen.V, Gen.hostOps0]; (after_results <;> rfl)

/-- Window 0's block at point `t`, at an entry. -/
theorem blk0 (t : Fin cfg0.N) (p : Fin 128) (cc : Fin 8) :
    iblk m c 0 t (ix2 p cc) = (m ((c : Thread nD τ).loc main_arg0)) (ix2 (brow t p) (Cert.Whole.selfCol cc)) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v0 (((cfg0.win 0).blk t).view.emb (ix2 p cc)) = _
  have hi : ((cfg0.win 0).blk t).view.emb (ix2 p cc) = ix2 (brow t p) cc := by
    funext ax; apply Fin.ext
    match ax with
    | ⟨0, _⟩ => show win0_0.index t (0 : Fin 2) * 128 + 1 * p.val = 128 * t.val + p.val; rw [e0_0]; omega
    | ⟨1, _⟩ => show win0_0.index t (1 : Fin 2) * 8 + 1 * cc.val = cc.val; rw [e0_1]; omega
  rw [hi, V0]
  exact extractStridedSlice_apply ![0, 0] _ slices_S8192x520_S8192x8_0_0 (ix2 (brow t p) cc) (ix2 (brow t p) (Cert.Whole.selfCol cc))
    (fun a => by match a with | ⟨0, _⟩ => exact (Nat.zero_add _).symm | ⟨1, _⟩ => exact (Nat.zero_add _).symm)

/-- The array window 1 stages, as the host operations before the kernel leave it. -/
theorem V1 : (V m c main_v2 : S8192x64x8.Idx → EReal) = shapeCast S8192x64x8 (extractStridedSlice S8192x512 ![0, 8] (m ((c : Thread nD τ).loc main_arg0)) slices_S8192x520_S8192x512_0_8) shapeCasts_S8192x512_S8192x64x8 := by
  dsimp only [Gen.V, Gen.hostOps0]; (after_results <;> rfl)

/-- Window 1's block at point `t`, at an entry. -/
theorem blk1 (t : Fin cfg0.N) (p : Fin 128) (n : Fin 64) (cc : Fin 8) :
    iblk m c 1 t (ix3 p n cc) = (m ((c : Thread nD τ).loc main_arg0)) (ix2 (brow t p) (Cert.Whole.nbCol n cc)) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v2 (((cfg0.win 1).blk t).view.emb (ix3 p n cc)) = _
  have hi : ((cfg0.win 1).blk t).view.emb (ix3 p n cc) = ix3 (brow t p) n cc := by
    funext ax; apply Fin.ext
    match ax with
    | ⟨0, _⟩ => show win0_1.index t (0 : Fin 3) * 128 + 1 * p.val = 128 * t.val + p.val; rw [e1_0]; omega
    | ⟨1, _⟩ => show win0_1.index t (1 : Fin 3) * 64 + 1 * n.val = n.val; rw [e1_1]; omega
    | ⟨2, _⟩ => show win0_1.index t (2 : Fin 3) * 8 + 1 * cc.val = cc.val; rw [e1_2]; omega
  rw [hi, V1]
  refine (shapeCast_apply _ shapeCasts_S8192x512_S8192x64x8 (ix3 (brow t p) n cc) (ix2 (brow t p) (⟨n.val * 8 + cc.val, by omega⟩ : Fin 512)) (by
      rw [Shape.rowMajor_val_two, Shape.rowMajor_val_three]
      show (brow t p).val * 512 + (n.val * 8 + cc.val) = ((brow t p).val * 64 + n.val) * 8 + cc.val
      omega)).trans ?_
  exact extractStridedSlice_apply ![0, 8] _ slices_S8192x520_S8192x512_0_8 (ix2 (brow t p) (⟨n.val * 8 + cc.val, by omega⟩ : Fin 512)) (ix2 (brow t p) (Cert.Whole.nbCol n cc))
    (fun a => by match a with | ⟨0, _⟩ => exact (Nat.zero_add _).symm | ⟨1, _⟩ => rfl)

/-- The array window 2 stages, as the host operations before the kernel leave it. -/
theorem V2 : (V m c main_v3 : S8x256.Idx → EReal) = truncf (F := Ideal) .bf16 (m ((c : Thread nD τ).loc main_arg1)) bitsLt_bf16_f32 := by
  dsimp only [Gen.V, Gen.hostOps0]; (after_results <;> rfl)

/-- Window 2's block at point `t`, at an entry. -/
theorem blk2 (t : Fin cfg0.N) (cc : Fin 8) (h : Fin 256) :
    iblk m c 2 t (ix2 cc h) = (m ((c : Thread nD τ).loc main_arg1)) (ix2 cc h) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v3 (((cfg0.win 2).blk t).view.emb (ix2 cc h)) = _
  have hi : ((cfg0.win 2).blk t).view.emb (ix2 cc h) = ix2 cc h := by
    funext ax; apply Fin.ext
    match ax with
    | ⟨0, _⟩ => show win0_2.index t (0 : Fin 2) * 8 + 1 * cc.val = cc.val; rw [e2_0]; omega
    | ⟨1, _⟩ => show win0_2.index t (1 : Fin 2) * 256 + 1 * h.val = h.val; rw [e2_1]; omega
  rw [hi, V2]
  rfl

/-- The array window 3 stages, as the host operations before the kernel leave it. -/
theorem V3 : (V m c main_v4 : S1x256.Idx → EReal) = shapeCast S1x256 (m ((c : Thread nD τ).loc main_arg2)) shapeCasts_S256_S1x256 := by
  dsimp only [Gen.V, Gen.hostOps0]; (after_results <;> rfl)

/-- Window 3's block at point `t`, at an entry. -/
theorem blk3 (t : Fin cfg0.N) (u : Fin 1) (h : Fin 256) :
    iblk m c 3 t (ix2 u h) = (m ((c : Thread nD τ).loc main_arg2)) (ix1 h) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v4 (((cfg0.win 3).blk t).view.emb (ix2 u h)) = _
  have hi : ((cfg0.win 3).blk t).view.emb (ix2 u h) = ix2 u h := by
    funext ax; apply Fin.ext
    match ax with
    | ⟨0, _⟩ => show win0_3.index t (0 : Fin 2) * 1 + 1 * u.val = u.val; rw [e3_0]; omega
    | ⟨1, _⟩ => show win0_3.index t (1 : Fin 2) * 256 + 1 * h.val = h.val; rw [e3_1]; omega
  rw [hi, V3]
  exact oneRow _ _ u h

/-- The array window 4 stages, as the host operations before the kernel leave it. -/
theorem V4 : (V m c main_v6 : S256x256.Idx → EReal) = truncf (F := Ideal) .bf16 (extractStridedSlice S256x256 ![0, 0] (m ((c : Thread nD τ).loc main_arg3)) slices_S256x257_S256x256_0_0) bitsLt_bf16_f32 := by
  dsimp only [Gen.V, Gen.hostOps0]; (after_results <;> rfl)

/-- Window 4's block at point `t`, at an entry. -/
theorem blk4 (t : Fin cfg0.N) (h : Fin 256) (e : Fin 256) :
    iblk m c 4 t (ix2 h e) = (m ((c : Thread nD τ).loc main_arg3)) (ix2 h (Cert.Spec.lead e)) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v6 (((cfg0.win 4).blk t).view.emb (ix2 h e)) = _
  have hi : ((cfg0.win 4).blk t).view.emb (ix2 h e) = ix2 h e := by
    funext ax; apply Fin.ext
    match ax with
    | ⟨0, _⟩ => show win0_4.index t (0 : Fin 2) * 256 + 1 * h.val = h.val; rw [e4_0]; omega
    | ⟨1, _⟩ => show win0_4.index t (1 : Fin 2) * 256 + 1 * e.val = e.val; rw [e4_1]; omega
  rw [hi, V4]
  exact extractStridedSlice_apply ![0, 0] _ slices_S256x257_S256x256_0_0 (ix2 h e) (ix2 h (Cert.Spec.lead e))
    (fun a => by match a with | ⟨0, _⟩ => exact (Nat.zero_add _).symm | ⟨1, _⟩ => exact (Nat.zero_add _).symm)

/-- The array window 5 stages, as the host operations before the kernel leave it. -/
theorem V5 : (V m c main_v9 : S1x256.Idx → EReal) = truncf (F := Ideal) .bf16 (shapeCast S1x256 (extractStridedSlice S256x1 ![0, 256] (m ((c : Thread nD τ).loc main_arg3)) slices_S256x257_S256x1_0_256) shapeCasts_S256x1_S1x256) bitsLt_bf16_f32 := by
  dsimp only [Gen.V, Gen.hostOps0]; (after_results <;> rfl)

/-- Window 5's block at point `t`, at an entry. -/
theorem blk5 (t : Fin cfg0.N) (u : Fin 1) (h : Fin 256) :
    iblk m c 5 t (ix2 u h) = (m ((c : Thread nD τ).loc main_arg3)) (ix2 h Cert.Spec.lastF) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v9 (((cfg0.win 5).blk t).view.emb (ix2 u h)) = _
  have hi : ((cfg0.win 5).blk t).view.emb (ix2 u h) = ix2 u h := by
    funext ax; apply Fin.ext
    match ax with
    | ⟨0, _⟩ => show win0_5.index t (0 : Fin 2) * 1 + 1 * u.val = u.val; rw [e5_0]; omega
    | ⟨1, _⟩ => show win0_5.index t (1 : Fin 2) * 256 + 1 * h.val = h.val; rw [e5_1]; omega
  rw [hi, V5]
  show shapeCast S1x256 (extractStridedSlice S256x1 ![0, 256] (m ((c : Thread nD τ).loc main_arg3)) slices_S256x257_S256x1_0_256) shapeCasts_S256x1_S1x256 (ix2 u h) = _
  refine (shapeCast_apply _ shapeCasts_S256x1_S1x256 (ix2 u h) (ix2 h (0 : Fin 1)) (by
      have hu : u.val = 0 := by omega
      rw [Shape.rowMajor_val_two, Shape.rowMajor_val_two]
      show h.val * 1 + 0 = u.val * 256 + h.val
      omega)).trans ?_
  exact extractStridedSlice_apply ![0, 256] _ slices_S256x257_S256x1_0_256 (ix2 h (0 : Fin 1)) (ix2 h Cert.Spec.lastF)
    (fun a => by match a with | ⟨0, _⟩ => exact (Nat.zero_add _).symm | ⟨1, _⟩ => rfl)

/-- The array window 6 stages, as the host operations before the kernel leave it. -/
theorem V6 : (V m c main_v11 : S1x256.Idx → EReal) = shapeCast S1x256 (extractStridedSlice S256 ![0] (m ((c : Thread nD τ).loc main_arg4)) slices_S257_S256_0) shapeCasts_S256_S1x256 := by
  dsimp only [Gen.V, Gen.hostOps0]; (after_results <;> rfl)

/-- Window 6's block at point `t`, at an entry. -/
theorem blk6 (t : Fin cfg0.N) (u : Fin 1) (e : Fin 256) :
    iblk m c 6 t (ix2 u e) = (m ((c : Thread nD τ).loc main_arg4)) (ix1 (Cert.Spec.lead e)) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v11 (((cfg0.win 6).blk t).view.emb (ix2 u e)) = _
  have hi : ((cfg0.win 6).blk t).view.emb (ix2 u e) = ix2 u e := by
    funext ax; apply Fin.ext
    match ax with
    | ⟨0, _⟩ => show win0_6.index t (0 : Fin 2) * 1 + 1 * u.val = u.val; rw [e6_0]; omega
    | ⟨1, _⟩ => show win0_6.index t (1 : Fin 2) * 256 + 1 * e.val = e.val; rw [e6_1]; omega
  rw [hi, V6]
  refine (oneRow _ _ u e).trans ?_
  exact extractStridedSlice_apply ![0] _ slices_S257_S256_0 (ix1 e) (ix1 (Cert.Spec.lead e))
    (fun a => by match a with | ⟨0, _⟩ => exact (Nat.zero_add _).symm)

/-- The array window 7 stages, as the host operations before the kernel leave it. -/
theorem V7 : (V m c main_v13 : S1x1.Idx → EReal) = shapeCast S1x1 (extractStridedSlice S1 ![256] (m ((c : Thread nD τ).loc main_arg4)) slices_S257_S1_256) shapeCasts_S1_S1x1 := by
  dsimp only [Gen.V, Gen.hostOps0]; (after_results <;> rfl)

/-- Window 7's block at point `t`, at an entry. -/
theorem blk7 (t : Fin cfg0.N) (u : Fin 1) (v : Fin 1) :
    iblk m c 7 t (ix2 u v) = (m ((c : Thread nD τ).loc main_arg4)) (ix1 Cert.Spec.lastF) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v13 (((cfg0.win 7).blk t).view.emb (ix2 u v)) = _
  have hi : ((cfg0.win 7).blk t).view.emb (ix2 u v) = ix2 u v := by
    funext ax; apply Fin.ext
    match ax with
    | ⟨0, _⟩ => show win0_7.index t (0 : Fin 2) * 1 + 1 * u.val = u.val; rw [e7_0]; omega
    | ⟨1, _⟩ => show win0_7.index t (1 : Fin 2) * 1 + 1 * v.val = v.val; rw [e7_1]; omega
  rw [hi, V7]
  refine (oneRow _ _ u v).trans ?_
  exact extractStridedSlice_apply ![256] _ slices_S257_S1_256 (ix1 v) (ix1 Cert.Spec.lastF)
    (fun a => by match a with | ⟨0, _⟩ => show (256 : ℕ) = 256 + v.val; omega)

/-- The array window 8 stages, as the host operations before the kernel leave it. -/
theorem V8 : (V m c main_v15 : S8x256.Idx → EReal) = truncf (F := Ideal) .bf16 (extractStridedSlice S8x256 ![0, 0] (m ((c : Thread nD τ).loc main_arg5)) slices_S265x256_S8x256_0_0) bitsLt_bf16_f32 := by
  dsimp only [Gen.V, Gen.hostOps0]; (after_results <;> rfl)

/-- Window 8's block at point `t`, at an entry. -/
theorem blk8 (t : Fin cfg0.N) (cc : Fin 8) (j : Fin 256) :
    iblk m c 8 t (ix2 cc j) = (m ((c : Thread nD τ).loc main_arg5)) (ix2 (Cert.Spec.own cc) j) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v15 (((cfg0.win 8).blk t).view.emb (ix2 cc j)) = _
  have hi : ((cfg0.win 8).blk t).view.emb (ix2 cc j) = ix2 cc j := by
    funext ax; apply Fin.ext
    match ax with
    | ⟨0, _⟩ => show win0_8.index t (0 : Fin 2) * 8 + 1 * cc.val = cc.val; rw [e8_0]; omega
    | ⟨1, _⟩ => show win0_8.index t (1 : Fin 2) * 256 + 1 * j.val = j.val; rw [e8_1]; omega
  rw [hi, V8]
  exact extractStridedSlice_apply ![0, 0] _ slices_S265x256_S8x256_0_0 (ix2 cc j) (ix2 (Cert.Spec.own cc) j)
    (fun a => by match a with | ⟨0, _⟩ => exact (Nat.zero_add _).symm | ⟨1, _⟩ => exact (Nat.zero_add _).symm)

/-- The array window 9 stages, as the host operations before the kernel leave it. -/
theorem V9 : (V m c main_v17 : S256x256.Idx → EReal) = truncf (F := Ideal) .bf16 (extractStridedSlice S256x256 ![8, 0] (m ((c : Thread nD τ).loc main_arg5)) slices_S265x256_S256x256_8_0) bitsLt_bf16_f32 := by
  dsimp only [Gen.V, Gen.hostOps0]; (after_results <;> rfl)

/-- Window 9's block at point `t`, at an entry. -/
theorem blk9 (t : Fin cfg0.N) (e : Fin 256) (j : Fin 256) :
    iblk m c 9 t (ix2 e j) = (m ((c : Thread nD τ).loc main_arg5)) (ix2 (Cert.Spec.mid e) j) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v17 (((cfg0.win 9).blk t).view.emb (ix2 e j)) = _
  have hi : ((cfg0.win 9).blk t).view.emb (ix2 e j) = ix2 e j := by
    funext ax; apply Fin.ext
    match ax with
    | ⟨0, _⟩ => show win0_9.index t (0 : Fin 2) * 256 + 1 * e.val = e.val; rw [e9_0]; omega
    | ⟨1, _⟩ => show win0_9.index t (1 : Fin 2) * 256 + 1 * j.val = j.val; rw [e9_1]; omega
  rw [hi, V9]
  exact extractStridedSlice_apply ![8, 0] _ slices_S265x256_S256x256_8_0 (ix2 e j) (ix2 (Cert.Spec.mid e) j)
    (fun a => by match a with | ⟨0, _⟩ => rfl | ⟨1, _⟩ => exact (Nat.zero_add _).symm)

/-- The array window 10 stages, as the host operations before the kernel leave it. -/
theorem V10 : (V m c main_v19 : S1x256.Idx → EReal) = truncf (F := Ideal) .bf16 (extractStridedSlice S1x256 ![264, 0] (m ((c : Thread nD τ).loc main_arg5)) slices_S265x256_S1x256_264_0) bitsLt_bf16_f32 := by
  dsimp only [Gen.V, Gen.hostOps0]; (after_results <;> rfl)

/-- Window 10's block at point `t`, at an entry. -/
theorem blk10 (t : Fin cfg0.N) (u : Fin 1) (j : Fin 256) :
    iblk m c 10 t (ix2 u j) = (m ((c : Thread nD τ).loc main_arg5)) (ix2 Cert.Spec.lastX j) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v19 (((cfg0.win 10).blk t).view.emb (ix2 u j)) = _
  have hi : ((cfg0.win 10).blk t).view.emb (ix2 u j) = ix2 u j := by
    funext ax; apply Fin.ext
    match ax with
    | ⟨0, _⟩ => show win0_10.index t (0 : Fin 2) * 1 + 1 * u.val = u.val; rw [e10_0]; omega
    | ⟨1, _⟩ => show win0_10.index t (1 : Fin 2) * 256 + 1 * j.val = j.val; rw [e10_1]; omega
  rw [hi, V10]
  exact extractStridedSlice_apply ![264, 0] _ slices_S265x256_S1x256_264_0 (ix2 u j) (ix2 Cert.Spec.lastX j)
    (fun a => by match a with | ⟨0, _⟩ => show (264 : ℕ) = 264 + u.val; omega
                               | ⟨1, _⟩ => exact (Nat.zero_add _).symm)

/-- The array window 11 stages, as the host operations before the kernel leave it. -/
theorem V11 : (V m c main_v20 : S1x256.Idx → EReal) = shapeCast S1x256 (m ((c : Thread nD τ).loc main_arg6)) shapeCasts_S256_S1x256 := by
  dsimp only [Gen.V, Gen.hostOps0]; (after_results <;> rfl)

/-- Window 11's block at point `t`, at an entry. -/
theorem blk11 (t : Fin cfg0.N) (u : Fin 1) (j : Fin 256) :
    iblk m c 11 t (ix2 u j) = (m ((c : Thread nD τ).loc main_arg6)) (ix1 j) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v20 (((cfg0.win 11).blk t).view.emb (ix2 u j)) = _
  have hi : ((cfg0.win 11).blk t).view.emb (ix2 u j) = ix2 u j := by
    funext ax; apply Fin.ext
    match ax with
    | ⟨0, _⟩ => show win0_11.index t (0 : Fin 2) * 1 + 1 * u.val = u.val; rw [e11_0]; omega
    | ⟨1, _⟩ => show win0_11.index t (1 : Fin 2) * 256 + 1 * j.val = j.val; rw [e11_1]; omega
  rw [hi, V11]
  exact oneRow _ _ u j

/-- The array window 12 stages, as the host operations before the kernel leave it. -/
theorem V12 : (V m c main_v21 : S256x30.Idx → EReal) = truncf (F := Ideal) .bf16 (m ((c : Thread nD τ).loc main_arg7)) bitsLt_bf16_f32 := by
  dsimp only [Gen.V, Gen.hostOps0]; (after_results <;> rfl)

/-- Window 12's block at point `t`, at an entry. -/
theorem blk12 (t : Fin cfg0.N) (j : Fin 256) (a : Fin 30) :
    iblk m c 12 t (ix2 j a) = (m ((c : Thread nD τ).loc main_arg7)) (ix2 j a) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v21 (((cfg0.win 12).blk t).view.emb (ix2 j a)) = _
  have hi : ((cfg0.win 12).blk t).view.emb (ix2 j a) = ix2 j a := by
    funext ax; apply Fin.ext
    match ax with
    | ⟨0, _⟩ => show win0_12.index t (0 : Fin 2) * 256 + 1 * j.val = j.val; rw [e12_0]; omega
    | ⟨1, _⟩ => show win0_12.index t (1 : Fin 2) * 30 + 1 * a.val = a.val; rw [e12_1]; omega
  rw [hi, V12]
  rfl

/-- The array window 13 stages, as the host operations before the kernel leave it. -/
theorem V13 : (V m c main_v22 : S1x30.Idx → EReal) = shapeCast S1x30 (m ((c : Thread nD τ).loc main_arg8)) shapeCasts_S30_S1x30 := by
  dsimp only [Gen.V, Gen.hostOps0]; (after_results <;> rfl)

/-- Window 13's block at point `t`, at an entry. -/
theorem blk13 (t : Fin cfg0.N) (u : Fin 1) (a : Fin 30) :
    iblk m c 13 t (ix2 u a) = (m ((c : Thread nD τ).loc main_arg8)) (ix1 a) := by
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  show V m c main_v22 (((cfg0.win 13).blk t).view.emb (ix2 u a)) = _
  have hi : ((cfg0.win 13).blk t).view.emb (ix2 u a) = ix2 u a := by
    funext ax; apply Fin.ext
    match ax with
    | ⟨0, _⟩ => show win0_13.index t (0 : Fin 2) * 1 + 1 * u.val = u.val; rw [e13_0]; omega
    | ⟨1, _⟩ => show win0_13.index t (1 : Fin 2) * 30 + 1 * a.val = a.val; rw [e13_1]; omega
  rw [hi, V13]
  exact oneRow _ _ u a

end Cert.KernelIdeal.Win

end
-- ==== Proof.KFinal.lean ====
/-
  The kernel's result array after the run is `Whole.G` of the argument arrays.

  At grid point `t` the body's output block is rows `128 t … 128 t + 127` of `G`: each of its rows is the
  network at that batch row (the body's value at a row, with the loaded blocks read as pieces of the
  argument arrays).  Row `r` of the array lies in the block of point `r / 128`, so the 64 written-back
  blocks cover the array, which therefore ends holding `G` everywhere.
-/
import proofs.«143022_j9594956939555_2_alg».proof.Proof.KRow
import proofs.«143022_j9594956939555_2_alg».proof.Proof.KWin

set_option maxRecDepth 16384

noncomputable section

namespace Cert.KernelIdeal.Final

open Cert.KernelIdeal Cert.KernelIdeal.Gen
open Idealize.ShloMosaic Idealize.ShloMosaic.ValueIdx Idealize.ShloMosaic.TcCoe Idealize.SL.Sem
open Idealize.ShloMosaic.Pipeline (Dat)
open Cert.KernelIdeal.Win Cert.KernelIdeal.Loop

variable (m : (ℓ : Loc nD τ sig) → Buf (Elt Ideal) ℓ) (ρ : Dev nD → PrngReg)

/-- WHAT POINT `t` WRITES BACK is block `t` of the result array of the arguments. -/
theorem flushed_eq (c : Dev nD) (t : Fin cfg0.N) :
    (dats m 0 c).flushed 14 t
      = ((cfg0.win 14).blk t).view.read (Elt Ideal) (Cert.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed14_A, out_eq]
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts t
  funext j
  obtain ⟨p, a, rfl⟩ : ∃ (p : Fin 128) (a : Fin 30), j = ix2 p a := ⟨j 0, j 1, eq_ix2 j⟩
  show blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p a)
    = Cert.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 14).blk t).view.emb (ix2 p a))
  have hi : ((cfg0.win 14).blk t).view.emb (ix2 p a) = ix2 (brow t p) a := by
    funext ax; apply Fin.ext
    match ax with
    | ⟨0, _⟩ => show win0_14.index t (0 : Fin 2) * 128 + 1 * p.val = 128 * t.val + p.val; rw [e14_0]; omega
    | ⟨1, _⟩ => show win0_14.index t (1 : Fin 2) * 30 + 1 * a.val = a.val; rw [e14_1]; omega
  rw [hi, Cert.Whole.G_ix2]
  exact Cert.KernelIdeal.Row.block_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (fun cc h => (m ((c : Thread nD τ).loc main_arg1)) (ix2 cc h)) (fun h => (m ((c : Thread nD τ).loc main_arg2)) (ix1 h)) (fun h e => (m ((c : Thread nD τ).loc main_arg3)) (ix2 h e)) (fun e => (m ((c : Thread nD τ).loc main_arg4)) (ix1 e))
    (fun x jj => (m ((c : Thread nD τ).loc main_arg5)) (ix2 x jj)) (fun jj => (m ((c : Thread nD τ).loc main_arg6)) (ix1 jj)) (fun jj aa => (m ((c : Thread nD τ).loc main_arg7)) (ix2 jj aa)) (fun aa => (m ((c : Thread nD τ).loc main_arg8)) (ix1 aa))
    (fun pp => Cert.Whole.own (m ((c : Thread nD τ).loc main_arg0)) (brow t pp)) (fun pp => Cert.Whole.nbs (m ((c : Thread nD τ).loc main_arg0)) (brow t pp))
    (fun pp n cc => blk1 m c t pp n cc) (fun cc h => blk2 m c t cc h) (fun h => blk3 m c t 0 h)
    (fun h e => blk4 m c t h e) (fun h => blk5 m c t 0 h) (fun e => blk6 m c t 0 e) (blk7 m c t 0 0)
    (fun pp cc => blk0 m c t pp cc) (fun cc jj => blk8 m c t cc jj) (fun e jj => blk9 m c t e jj)
    (fun jj => blk10 m c t 0 jj) (fun jj => blk11 m c t 0 jj) (fun jj aa => blk12 m c t jj aa) (fun aa => blk13 m c t 0 aa)
    p a

/-- An index of the array is in point `t`'s block iff each coordinate is in the block's range on its axis. -/
theorem mem_blk (t : Fin cfg0.N) (i : S8192x30.Idx) :
    i ∈ ((cfg0.win 14).blk t).view.set ↔ ∀ ax : Fin 2, win0_14.index t ax * S128x30.size ax ≤ (i ax).val
      ∧ (i ax).val < win0_14.index t ax * S128x30.size ax + S128x30.size ax := by
  show i ∈ ((View.whole main_v23).slice (win0_14.rect t)).set ↔ _
  rw [View.set_slice_whole, Rect.mem_set_unit]
  exact Iff.rfl

/-- Every index of the array is in the block of the point its row falls in. -/
theorem cover (i : S8192x30.Idx) :
    ∃ t : Fin cfg0.N, (cfg0.win 14).flush t = true ∧ i ∈ ((cfg0.win 14).blk t).view.set := by
  have hi0 : (i 0).val < 8192 := (i 0).isLt
  have hi1 : (i 1).val < 30 := (i 1).isLt
  have hN : cfg0.N = 64 := N_0
  obtain ⟨e0_0, e0_1, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_facts (⟨(i 0).val / 128, by omega⟩ : Fin cfg0.N)
  refine ⟨⟨(i 0).val / 128, by omega⟩, flush0_14 _, ?_⟩
  rw [mem_blk]
  intro ax
  match ax with
  | ⟨0, _⟩ =>
    show win0_14.index ⟨(i 0).val / 128, _⟩ (0 : Fin 2) * 128 ≤ (i 0).val
      ∧ (i 0).val < win0_14.index ⟨(i 0).val / 128, _⟩ (0 : Fin 2) * 128 + 128
    rw [e14_0]
    show (i 0).val / 128 * 128 ≤ (i 0).val ∧ (i 0).val < (i 0).val / 128 * 128 + 128
    omega
  | ⟨1, _⟩ =>
    show win0_14.index ⟨(i 0).val / 128, _⟩ (1 : Fin 2) * 30 ≤ (i 1).val
      ∧ (i 1).val < win0_14.index ⟨(i 0).val / 128, _⟩ (1 : Fin 2) * 30 + 30
    rw [e14_1]
    omega

/-- THE ARRAY after the run is the result array of the arguments. -/
theorem final (c : Dev nD) : (dats m 0 c).arrAt 14 cfg0.N = Cert.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 14 _ (fun t _ => flushed_eq m c t) cover

/-- The kernel's run re-posted: the result buffer at the result array of the arguments, the arguments unchanged. -/
theorem run : θ_run defs (onTc (τ := τ) (main (F := Ideal))) ⟨m, fun _ => 0, ρ⟩ fun r => ∀ c : Dev nD,
      r.2.mem ((c : Thread nD τ).loc main_v23) = Cert.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.Final

end
-- ==== Proof.LibAfterAppend.lean ====
/-
  The buffer contents after a list of host operations, split at any point of the list: running
  `l₁ ++ l₂` from contents `V` is running `l₂` from what `l₁` leaves.
-/
import Idealize.ShloMosaic.Lib.StableHlo.Run

noncomputable section

namespace Cert.AfterAppend

open Idealize.ShloMosaic Idealize.ShloMosaic.StableHlo

/-- The contents after `l₁ ++ l₂` are the contents after `l₂` run from the contents after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend

end
-- ==== Proof.RefRun.lean ====
/-
  The reference program run from any memory: every weakly fair execution ends with the result buffer
  holding the composition of the program's operations applied to the argument arrays (the last stage
  `val_main_v31` of the reading lemmas), and with the arguments as they were.

  The program is a straight line of 41 array operations.  Its contents after the run are computed in two
  parts, cut before the operation that joins the own state with the pooled encoding: after the first
  29 operations the two joined operands and the untouched arguments are read off; the remaining 12
  operations are then read from those contents.
-/
import proofs.«143022_j9594956939555_2_alg».proof.Proof.ReadPatched
import proofs.«143022_j9594956939555_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the pooled encoding. -/
abbrev ops₁ : List (HloOp τ sig (Elt F)) :=
  [ unary main_arg0 main_v0 ((extractStridedSlice S8192x8 ![0, 0] · slices_S8192x520_S8192x8_0_0) : (⟨S8192x520, .f32⟩ : BufTy).Contents (Elt F) → (⟨S8192x8, .f32⟩ : BufTy).Contents (Elt F)),
    unary main_arg0 main_v1 ((extractStridedSlice S8192x512 ![0, 8] · slices_S8192x520_S8192x512_0_8) : (⟨S8192x520, .f32⟩ : BufTy).Contents (Elt F) → (⟨S8192x512, .f32⟩ : BufTy).Contents (Elt F)),
    reshape main_v1 main_v2 rfl shapeCasts_S8192x512_S8192x64x8,
    nullary main_cst (constant S_ .f32 0xBF800000#32),
    unary main_cst main_v3 (broadcastInDim S8192x64x8 ![] bcast_S_S8192x64x8 : (⟨S_, .f32⟩ : BufTy).Contents (Elt F) → (⟨S8192x64x8, .f32⟩ : BufTy).Contents (Elt F)),
    binary main_v2 main_v3 main_v4 (cmpf .oeq : (⟨S8192x64x8, .f32⟩ : BufTy).Contents (Elt F) → (⟨S8192x64x8, .f32⟩ : BufTy).Contents (Elt F) → (⟨S8192x64x8, .i1⟩ : BufTy).Contents (Elt F)),
    nullary main_c (constantI S_ 1 0#1),
    binary main_v4 main_c main_v5 ((fun x v => Host.reduce IntOp.ori x v reducesTo_S8192x64x8_S8192x64_d2 h_S_) : (⟨S8192x64x8, .i1⟩ : BufTy).Contents (Elt F) → (⟨S_, .i1⟩ : BufTy).Contents (Elt F) → (⟨S8192x64, .i1⟩ : BufTy).Contents (Elt F)),
    unary main_v5 main_v6 (noti : (⟨S8192x64, .i1⟩ : BufTy).Contents (Elt F) → (⟨S8192x64, .i1⟩ : BufTy).Contents (Elt F)),
    binary main_v2 main_arg1 main_v7 ((fun l r => Host.dotGeneral dot_S8192x64x8_S8x256_S8192x64x256_2_0_01_1_n_n none l r) : (⟨S8192x64x8, .f32⟩ : BufTy).Contents (Elt F) → (⟨S8x256, .f32⟩ : BufTy).Contents (Elt F) → (⟨S8192x64x256, .f32⟩ : BufTy).Contents (Elt F)),
    unary main_arg2 main_v8 (broadcastInDim S1x1x256 ![2] bcast_S256_S1x1x256_2 : (⟨S256, .f32⟩ : BufTy).Contents (Elt F) → (⟨S1x1x256, .f32⟩ : BufTy).Contents (Elt F)),
    unary main_v8 main_v9 (broadcastInDim S8192x64x256 ![0, 1, 2] bcast_S1x1x256_S8192x64x256_0_1_2 : (⟨S1x1x256, .f32⟩ : BufTy).Contents (Elt F) → (⟨S8192x64x256, .f32⟩ : BufTy).Contents (Elt F)),
    binary main_v7 main_v9 main_v10 (addf : (⟨S8192x64x256, .f32⟩ : BufTy).Contents (Elt F) → (⟨S8192x64x256, .f32⟩ : BufTy).Contents (Elt F) → (⟨S8192x64x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x64x256, .f32⟩) main_call0_v0) (broadcastInDim S8192x64x256 ![] bcast_S_S8192x64x256),
    TRef.binary (TRef.of (T := ⟨S8192x64x256, .f32⟩) main_v10) (TRef.of (T := ⟨S8192x64x256, .f32⟩) main_call0_v0) (TRef.of (T := ⟨S8192x64x256, .f32⟩) main_v11) maximumf,
    binary main_v11 main_arg3 main_v12 ((fun l r => Host.dotGeneral dot_S8192x64x256_S256x257_S8192x64x257_2_0_01_1_n_n none l r) : (⟨S8192x64x256, .f32⟩ : BufTy).Contents (Elt F) → (⟨S256x257, .f32⟩ : BufTy).Contents (Elt F) → (⟨S8192x64x257, .f32⟩ : BufTy).Contents (Elt F)),
    unary main_arg4 main_v13 (broadcastInDim S1x1x257 ![2] bcast_S257_S1x1x257_2 : (⟨S257, .f32⟩ : BufTy).Contents (Elt F) → (⟨S1x1x257, .f32⟩ : BufTy).Contents (Elt F)),
    unary main_v13 main_v14 (broadcastInDim S8192x64x257 ![0, 1, 2] bcast_S1x1x257_S8192x64x257_0_1_2 : (⟨S1x1x257, .f32⟩ : BufTy).Contents (Elt F) → (⟨S8192x64x257, .f32⟩ : BufTy).Contents (Elt F)),
    binary main_v12 main_v14 main_v15 (addf : (⟨S8192x64x257, .f32⟩ : BufTy).Contents (Elt F) → (⟨S8192x64x257, .f32⟩ : BufTy).Contents (Elt F) → (⟨S8192x64x257, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x64x257, .f32⟩) main_call1_v0) (broadcastInDim S8192x64x257 ![] bcast_S_S8192x64x257),
    TRef.binary (TRef.of (T := ⟨S8192x64x257, .f32⟩) main_v15) (TRef.of (T := ⟨S8192x64x257, .f32⟩) main_call1_v0) (TRef.of (T := ⟨S8192x64x257, .f32⟩) main_v16) maximumf,
    unary main_v6 main_v17 (broadcastInDim S8192x64x1 ![0, 1] bcast_S8192x64_S8192x64x1_0_1 : (⟨S8192x64, .i1⟩ : BufTy).Contents (Elt F) → (⟨S8192x64x1, .i1⟩ : BufTy).Contents (Elt F)),
    unary main_v17 main_v18 (uitofp .f32 : (⟨S8192x64x1, .i1⟩ : BufTy).Contents (Elt F) → (⟨S8192x64x1, .f32⟩ : BufTy).Contents (Elt F)),
    unary main_v18 main_v19 (broadcastInDim S8192x64x257 ![0, 1, 2] bcast_S8192x64x1_S8192x64x257_0_1_2 : (⟨S8192x64x1, .f32⟩ : BufTy).Contents (Elt F) → (⟨S8192x64x257, .f32⟩ : BufTy).Contents (Elt F)),
    binary main_v16 main_v19 main_v20 (mulf : (⟨S8192x64x257, .f32⟩ : BufTy).Contents (Elt F) → (⟨S8192x64x257, .f32⟩ : BufTy).Contents (Elt F) → (⟨S8192x64x257, .f32⟩ : BufTy).Contents (Elt F)),
    nullary main_cst_0 (constant S_ .f32 0x00000000#32),
    binary main_v20 main_cst_0 main_v21 ((fun x v => Host.reduceAdd x v reducesTo_S8192x64x257_S8192x257_d1 h_S_) : (⟨S8192x64x257, .f32⟩ : BufTy).Contents (Elt F) → (⟨S_, .f32⟩ : BufTy).Contents (Elt F) → (⟨S8192x257, .f32⟩ : BufTy).Contents (Elt F)) ]

/-- The operations from the join on. -/
abbrev ops₂ : List (HloOp τ sig (Elt F)) :=
  [ binary main_v0 main_v21 main_v22 ((fun a b => concatenate S8192x265 1 [⟨S8192x8, a⟩, ⟨S8192x257, b⟩] concatenates_S8192x8_S8192x257_S8192x265_d1) : (⟨S8192x8, .f32⟩ : BufTy).Contents (Elt F) → (⟨S8192x257, .f32⟩ : BufTy).Contents (Elt F) → (⟨S8192x265, .f32⟩ : BufTy).Contents (Elt F)),
    binary main_v22 main_arg5 main_v23 ((fun l r => Host.dotGeneral dot_S8192x265_S265x256_S8192x256_1_0_0_1_n_n none l r) : (⟨S8192x265, .f32⟩ : BufTy).Contents (Elt F) → (⟨S265x256, .f32⟩ : BufTy).Contents (Elt F) → (⟨S8192x256, .f32⟩ : BufTy).Contents (Elt F)),
    unary main_arg6 main_v24 (broadcastInDim S1x256 ![1] bcast_S256_S1x256_1 : (⟨S256, .f32⟩ : BufTy).Contents (Elt F) → (⟨S1x256, .f32⟩ : BufTy).Contents (Elt F)),
    unary main_v24 main_v25 (broadcastInDim S8192x256 ![0, 1] bcast_S1x256_S8192x256_0_1 : (⟨S1x256, .f32⟩ : BufTy).Contents (Elt F) → (⟨S8192x256, .f32⟩ : BufTy).Contents (Elt F)),
    binary main_v23 main_v25 main_v26 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x256, .f32⟩) main_call2_v0) (broadcastInDim S8192x256 ![] bcast_S_S8192x256),
    TRef.binary (TRef.of (T := ⟨S8192x256, .f32⟩) main_v26) (TRef.of (T := ⟨S8192x256, .f32⟩) main_call2_v0) (TRef.of (T := ⟨S8192x256, .f32⟩) main_v27) maximumf,
    binary main_v27 main_arg7 main_v28 ((fun l r => Host.dotGeneral dot_S8192x256_S256x30_S8192x30_1_0_0_1_n_n none l r) : (⟨S8192x256, .f32⟩ : BufTy).Contents (Elt F) → (⟨S256x30, .f32⟩ : BufTy).Contents (Elt F) → (⟨S8192x30, .f32⟩ : BufTy).Contents (Elt F)),
    unary main_arg8 main_v29 (broadcastInDim S1x30 ![1] bcast_S30_S1x30_1 : (⟨S30, .f32⟩ : BufTy).Contents (Elt F) → (⟨S1x30, .f32⟩ : BufTy).Contents (Elt F)),
    unary main_v29 main_v30 (broadcastInDim S8192x30 ![0, 1] bcast_S1x30_S8192x30_0_1 : (⟨S1x30, .f32⟩ : BufTy).Contents (Elt F) → (⟨S8192x30, .f32⟩ : BufTy).Contents (Elt F)),
    binary main_v28 main_v30 main_v31 (addf : (⟨S8192x30, .f32⟩ : BufTy).Contents (Elt F) → (⟨S8192x30, .f32⟩ : BufTy).Contents (Elt F) → (⟨S8192x30, .f32⟩ : BufTy).Contents (Elt F)) ]

/-- The program's operations, in order. -/
abbrev ops : List (HloOp τ sig (Elt F)) := ops₁ ++ ops₂

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

variable (m : (ℓ : Loc nD τ sig) → Buf (Elt F) ℓ) (c : Dev nD)

/-- After the first part the own-state slice is the first stage. -/
theorem part1_v0 : after (ops₁ (F := F)) (launchContents m c) (Proc.devRef .tc main_v0) = Read.val_main_v0 (m ((c.tc : Thread nD τ).loc main_arg0)) := by
  after_results_simp <;> rfl

set_option maxRecDepth 8192 in
set_option maxHeartbeats 2000000 in
/-- After the first part the pooled encoding is its stage. -/
theorem part1_v21 : after (ops₁ (F := F)) (launchContents m c) (Proc.devRef .tc main_v21)
    = Read.val_main_v21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_results_simp <;> rfl

theorem part1_arg0 : after (ops₁ (F := F)) (launchContents m c) (Proc.devRef .tc main_arg0) = m ((c.tc : Thread nD τ).loc main_arg0) := by
  after_results_simp <;> rfl
theorem part1_arg1 : after (ops₁ (F := F)) (launchContents m c) (Proc.devRef .tc main_arg1) = m ((c.tc : Thread nD τ).loc main_arg1) := by
  after_results_simp <;> rfl
theorem part1_arg2 : after (ops₁ (F := F)) (launchContents m c) (Proc.devRef .tc main_arg2) = m ((c.tc : Thread nD τ).loc main_arg2) := by
  after_results_simp <;> rfl
theorem part1_arg3 : after (ops₁ (F := F)) (launchContents m c) (Proc.devRef .tc main_arg3) = m ((c.tc : Thread nD τ).loc main_arg3) := by
  after_results_simp <;> rfl
theorem part1_arg4 : after (ops₁ (F := F)) (launchContents m c) (Proc.devRef .tc main_arg4) = m ((c.tc : Thread nD τ).loc main_arg4) := by
  after_results_simp <;> rfl
theorem part1_arg5 : after (ops₁ (F := F)) (launchContents m c) (Proc.devRef .tc main_arg5) = m ((c.tc : Thread nD τ).loc main_arg5) := by
  after_results_simp <;> rfl
theorem part1_arg6 : after (ops₁ (F := F)) (launchContents m c) (Proc.devRef .tc main_arg6) = m ((c.tc : Thread nD τ).loc main_arg6) := by
  after_results_simp <;> rfl
theorem part1_arg7 : after (ops₁ (F := F)) (launchContents m c) (Proc.devRef .tc main_arg7) = m ((c.tc : Thread nD τ).loc main_arg7) := by
  after_results_simp <;> rfl
theorem part1_arg8 : after (ops₁ (F := F)) (launchContents m c) (Proc.devRef .tc main_arg8) = m ((c.tc : Thread nD τ).loc main_arg8) := by
  after_results_simp <;> rfl

set_option maxRecDepth 8192 in
set_option maxHeartbeats 2000000 in
/-- The whole program's result is the last stage of the arguments. -/
theorem result : after (ops (F := F)) (launchContents m c) (Proc.devRef .tc main_v31)
    = Read.val_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [show (ops (F := F)) = ops₁ ++ ops₂ from rfl, Cert.AfterAppend.after_append]
  have e0 := part1_v0 m c
  have e21 := part1_v21 m c
  have e5 := part1_arg5 m c
  have e6 := part1_arg6 m c
  have e7 := part1_arg7 m c
  have e8 := part1_arg8 m c
  generalize after (ops₁ (F := F)) (launchContents m c) = W at e0 e21 e5 e6 e7 e8
  after_results_simp
  rw [e0, e21, e5, e6, e7, e8]
  rfl

/-- Argument 0 is unchanged by the whole program. -/
theorem kept0 : after (ops (F := F)) (launchContents m c) (Proc.devRef .tc main_arg0) = m ((c.tc : Thread nD τ).loc main_arg0) := by
  rw [show (ops (F := F)) = ops₁ ++ ops₂ from rfl, Cert.AfterAppend.after_append]
  have e := part1_arg0 m c
  generalize after (ops₁ (F := F)) (launchContents m c) = W at e
  after_results_simp
  exact e

/-- Argument 1 is unchanged by the whole program. -/
theorem kept1 : after (ops (F := F)) (launchContents m c) (Proc.devRef .tc main_arg1) = m ((c.tc : Thread nD τ).loc main_arg1) := by
  rw [show (ops (F := F)) = ops₁ ++ ops₂ from rfl, Cert.AfterAppend.after_append]
  have e := part1_arg1 m c
  generalize after (ops₁ (F := F)) (launchContents m c) = W at e
  after_results_simp
  exact e

/-- Argument 2 is unchanged by the whole program. -/
theorem kept2 : after (ops (F := F)) (launchContents m c) (Proc.devRef .tc main_arg2) = m ((c.tc : Thread nD τ).loc main_arg2) := by
  rw [show (ops (F := F)) = ops₁ ++ ops₂ from rfl, Cert.AfterAppend.after_append]
  have e := part1_arg2 m c
  generalize after (ops₁ (F := F)) (launchContents m c) = W at e
  after_results_simp
  exact e

/-- Argument 3 is unchanged by the whole program. -/
theorem kept3 : after (ops (F := F)) (launchContents m c) (Proc.devRef .tc main_arg3) = m ((c.tc : Thread nD τ).loc main_arg3) := by
  rw [show (ops (F := F)) = ops₁ ++ ops₂ from rfl, Cert.AfterAppend.after_append]
  have e := part1_arg3 m c
  generalize after (ops₁ (F := F)) (launchContents m c) = W at e
  after_results_simp
  exact e

/-- Argument 4 is unchanged by the whole program. -/
theorem kept4 : after (ops (F := F)) (launchContents m c) (Proc.devRef .tc main_arg4) = m ((c.tc : Thread nD τ).loc main_arg4) := by
  rw [show (ops (F := F)) = ops₁ ++ ops₂ from rfl, Cert.AfterAppend.after_append]
  have e := part1_arg4 m c
  generalize after (ops₁ (F := F)) (launchContents m c) = W at e
  after_results_simp
  exact e

/-- Argument 5 is unchanged by the whole program. -/
theorem kept5 : after (ops (F := F)) (launchContents m c) (Proc.devRef .tc main_arg5) = m ((c.tc : Thread nD τ).loc main_arg5) := by
  rw [show (ops (F := F)) = ops₁ ++ ops₂ from rfl, Cert.AfterAppend.after_append]
  have e := part1_arg5 m c
  generalize after (ops₁ (F := F)) (launchContents m c) = W at e
  after_results_simp
  exact e

/-- Argument 6 is unchanged by the whole program. -/
theorem kept6 : after (ops (F := F)) (launchContents m c) (Proc.devRef .tc main_arg6) = m ((c.tc : Thread nD τ).loc main_arg6) := by
  rw [show (ops (F := F)) = ops₁ ++ ops₂ from rfl, Cert.AfterAppend.after_append]
  have e := part1_arg6 m c
  generalize after (ops₁ (F := F)) (launchContents m c) = W at e
  after_results_simp
  exact e

/-- Argument 7 is unchanged by the whole program. -/
theorem kept7 : after (ops (F := F)) (launchContents m c) (Proc.devRef .tc main_arg7) = m ((c.tc : Thread nD τ).loc main_arg7) := by
  rw [show (ops (F := F)) = ops₁ ++ ops₂ from rfl, Cert.AfterAppend.after_append]
  have e := part1_arg7 m c
  generalize after (ops₁ (F := F)) (launchContents m c) = W at e
  after_results_simp
  exact e

/-- Argument 8 is unchanged by the whole program. -/
theorem kept8 : after (ops (F := F)) (launchContents m c) (Proc.devRef .tc main_arg8) = m ((c.tc : Thread nD τ).loc main_arg8) := by
  rw [show (ops (F := F)) = ops₁ ++ ops₂ from rfl, Cert.AfterAppend.after_append]
  have e := part1_arg8 m c
  generalize after (ops₁ (F := F)) (launchContents m c) = W at e
  after_results_simp
  exact e

/-- On every device, from any memory with zero counters: every weakly fair execution of the reference
    terminates with its result at the last stage of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v31) = Read.val_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v31).trans (result m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c)⟩)
    (run_seq scopedRefs_eq scopedSems_eq defs main (fun _ => ops) main_eq (fun _ => ops_sub) m ρ)

end Cert.ReferenceIdeal.RefRun

end
-- ==== Proof.RefSpec.lean ====
/-
  The reference program's last stage is the result array `Whole.G` of its arguments.

  Stage by stage at an index: a neighbour's coordinates are read out of the state array (a slice and a
  reshape); the first layer at (r, n, h) is `Spec.hid` of neighbour n of row r, the second `Spec.enc`;
  the keep-flag (an or over the eight comparisons, negated, converted) is `Spec.valid`; the sum over
  the 64 neighbours is `Spec.pooled`; the joined array at column x is `Spec.feat`; then `Spec.hq`, `Spec.q`.
-/
import proofs.«143022_j9594956939555_2_alg».proof.Proof.ReadPatched
import proofs.«143022_j9594956939555_2_alg».proof.Proof.Whole
import proofs.«143022_j9594956939555_2_alg».proof.Proof.Flag
import proofs.«143022_j9594956939555_2_alg».proof.Proof.LibReduceLast
import Idealize.ShloMosaic.PureOps.Reduce

noncomputable section

namespace Cert.ReferenceIdeal.RefSpec

open Cert.ReferenceIdeal Cert.ReferenceIdeal.Gen Cert.ReferenceIdeal.Read
open Idealize.ShloMosaic Idealize.ShloMosaic.ValueIdx Cert.Whole

/-! ## The reading lemmas' index maps at constructed indices -/

theorem i_v0 (r : Fin 8192) (c : Fin 8) : idx_main_v0 (ix2 r c) = ix2 r (selfCol c) :=
  funext fun a => Fin.ext (by match a with | ⟨0, _⟩ => rfl | ⟨1, _⟩ => rfl)

theorem i_v2 (r : Fin 8192) (n : Fin 64) (c : Fin 8) : idx_main_v1 (idx_main_v2 (ix3 r n c)) = ix2 r (nbCol n c) :=
  funext fun a => Fin.ext (by
    have hr := r.isLt; have hn := n.isLt; have hc := c.isLt
    match a with
    | ⟨0, _⟩ => show ((r.val * 64 + n.val) * 8 + c.val) / 512 = r.val; omega
    | ⟨1, _⟩ => show 8 + ((r.val * 64 + n.val) * 8 + c.val) % 512 = 8 + (n.val * 8 + c.val); omega)

theorem i_l7 (r : Fin 8192) (n : Fin 64) (h : Fin 256) (k : Fin 8) : lidx_main_v7 (ix3 r n h) k = ix3 r n k :=
  funext fun a => Fin.ext (by match a with | ⟨0, _⟩ => rfl | ⟨1, _⟩ => rfl | ⟨2, _⟩ => rfl)
theorem i_r7 (r : Fin 8192) (n : Fin 64) (h : Fin 256) (k : Fin 8) : ridx_main_v7 (ix3 r n h) k = ix2 k h :=
  funext fun a => Fin.ext (by match a with | ⟨0, _⟩ => rfl | ⟨1, _⟩ => rfl)
theorem i_v9 (r : Fin 8192) (n : Fin 64) (h : Fin 256) : idx_main_v8 (idx_main_v9 (ix3 r n h)) = ix1 h :=
  funext fun a => Fin.ext (by match a with | ⟨0, _⟩ => rfl)
theorem i_l12 (r : Fin 8192) (n : Fin 64) (e : Fin 257) (k : Fin 256) : lidx_main_v12 (ix3 r n e) k = ix3 r n k :=
  funext fun a => Fin.ext (by match a with | ⟨0, _⟩ => rfl | ⟨1, _⟩ => rfl | ⟨2, _⟩ => rfl)
theorem i_r12 (r : Fin 8192) (n : Fin 64) (e : Fin 257) (k : Fin 256) : ridx_main_v12 (ix3 r n e) k = ix2 k e :=
  funext fun a => Fin.ext (by match a with | ⟨0, _⟩ => rfl | ⟨1, _⟩ => rfl)
theorem i_v14 (r : Fin 8192) (n : Fin 64) (e : Fin 257) : idx_main_v13 (idx_main_v14 (ix3 r n e)) = ix1 e :=
  funext fun a => Fin.ext (by match a with | ⟨0, _⟩ => rfl)
theorem i_v19 (r : Fin 8192) (n : Fin 64) (e : Fin 257) : idx_main_v17 (idx_main_v19 (ix3 r n e)) = ix2 r n :=
  funext fun a => Fin.ext (by match a with | ⟨0, _⟩ => rfl | ⟨1, _⟩ => rfl)
theorem i_v21 (r : Fin 8192) (e : Fin 257) (k : Fin 64) : idx_main_v21 (ix2 r e) k = ix3 r k e :=
  funext fun a => Fin.ext (by match a with | ⟨0, _⟩ => rfl | ⟨1, _⟩ => rfl | ⟨2, _⟩ => rfl)
theorem i_l23 (r : Fin 8192) (j : Fin 256) (k : Fin 265) : lidx_main_v23 (ix2 r j) k = ix2 r k :=
  funext fun a => Fin.ext (by match a with | ⟨0, _⟩ => rfl | ⟨1, _⟩ => rfl)
theorem i_r23 (r : Fin 8192) (j : Fin 256) (k : Fin 265) : ridx_main_v23 (ix2 r j) k = ix2 k j :=
  funext fun a => Fin.ext (by match a with | ⟨0, _⟩ => rfl | ⟨1, _⟩ => rfl)
theorem i_v25 (r : Fin 8192) (j : Fin 256) : idx_main_v24 (idx_main_v25 (ix2 r j)) = ix1 j :=
  funext fun a => Fin.ext (by match a with | ⟨0, _⟩ => rfl)
theorem i_l28 (r : Fin 8192) (a : Fin 30) (k : Fin 256) : lidx_main_v28 (ix2 r a) k = ix2 r k :=
  funext fun b => Fin.ext (by match b with | ⟨0, _⟩ => rfl | ⟨1, _⟩ => rfl)
theorem i_r28 (r : Fin 8192) (a : Fin 30) (k : Fin 256) : ridx_main_v28 (ix2 r a) k = ix2 k a :=
  funext fun b => Fin.ext (by match b with | ⟨0, _⟩ => rfl | ⟨1, _⟩ => rfl)
theorem i_v30 (r : Fin 8192) (a : Fin 30) : idx_main_v29 (idx_main_v30 (ix2 r a)) = ix1 a :=
  funext fun b => Fin.ext (by match b with | ⟨0, _⟩ => rfl)

variable (x0 : (⟨2, ![8192, 520]⟩ : Shape).Idx → EReal) (x1 : (⟨2, ![8, 256]⟩ : Shape).Idx → EReal)
  (x2 : (⟨1, ![256]⟩ : Shape).Idx → EReal) (x3 : (⟨2, ![256, 257]⟩ : Shape).Idx → EReal)
  (x4 : (⟨1, ![257]⟩ : Shape).Idx → EReal) (x5 : (⟨2, ![265, 256]⟩ : Shape).Idx → EReal)
  (x6 : (⟨1, ![256]⟩ : Shape).Idx → EReal) (x7 : (⟨2, ![256, 30]⟩ : Shape).Idx → EReal)
  (x8 : (⟨1, ![30]⟩ : Shape).Idx → EReal)

/-! ## The stages -/

/-- A neighbour's coordinate. -/
theorem nb_at (r : Fin 8192) (n : Fin 64) (c : Fin 8) : val_main_v2 (F := Ideal) x0 (ix3 r n c) = nbs x0 r n c := by
  rw [val_main_v2_apply, val_main_v1_apply, i_v2]; rfl

/-- An own-state coordinate. -/
theorem own_at (r : Fin 8192) (c : Fin 8) : val_main_v0 (F := Ideal) x0 (ix2 r c) = own x0 r c := by
  rw [val_main_v0_apply, i_v0]; rfl

/-- The first layer. -/
theorem hid_at (r : Fin 8192) (n : Fin 64) (h : Fin 256) :
    val_main_v11 (F := Ideal) x0 x1 x2 (ix3 r n h) = Cert.Spec.hid (fun c h => x1 (ix2 c h)) (fun h => x2 (ix1 h)) (nbs x0 r n) h := by
  rw [val_main_v11_apply, val_main_v10_apply, val_main_v7_apply, val_main_v9_apply, val_main_v8_apply,
    val_main_call0_v0_apply, val_main_call0_cst_apply, i_v9]
  unfold Cert.Spec.hid
  simp only [i_l7, i_r7, nb_at, Ideal.ofBits_def, Ideal.ofBits_zero_f32, Ideal.maximumf_def, Ideal.addf_def]

/-- The second layer. -/
theorem enc_at (r : Fin 8192) (n : Fin 64) (e : Fin 257) :
    val_main_v16 (F := Ideal) x0 x1 x2 x3 x4 (ix3 r n e) = Cert.Spec.enc (fun c h => x1 (ix2 c h)) (fun h => x2 (ix1 h)) (fun h e => x3 (ix2 h e)) (fun e => x4 (ix1 e)) (nbs x0 r n) e := by
  rw [val_main_v16_apply, val_main_v15_apply, val_main_v12_apply, val_main_v14_apply, val_main_v13_apply,
    val_main_call1_v0_apply, val_main_call1_cst_apply, i_v14]
  unfold Cert.Spec.enc
  simp only [i_l12, i_r12, hid_at, Ideal.ofBits_def, Ideal.ofBits_zero_f32, Ideal.maximumf_def, Ideal.addf_def]

/-- The keep-flag. -/
theorem flag_at (r : Fin 8192) (n : Fin 64) (e : Fin 257) :
    val_main_v19 (F := Ideal) x0 (ix3 r n e) = Cert.Spec.valid (nbs x0 r n) := by
  rw [val_main_v19_apply, val_main_v18_apply, val_main_v17_apply, val_main_v6_apply, i_v19]
  have hred : S8192x64x8.Reduces [2] S8192x64 := by decide
  have h5 : val_main_v5 (F := Ideal) x0 (ix2 r n)
      = (Finset.univ : Finset (Fin 8)).fold IntOp.ori 0#1 fun c => Ideal.cmp .oeq (nbs x0 r n c) Cert.Spec.sentinel := by
    unfold val_main_v5
    rw [Host.reduce_eq_fold_single IntOp.ori _ _ reducesTo_S8192x64x8_S8192x64_d2 hred h_S_ (ix2 r n)]
    have hg : (val_main_v4 (F := Ideal) x0 ∘ hred.lift (ix2 r n))
        = fun c : Fin 8 => Ideal.cmp .oeq (nbs x0 r n c) Cert.Spec.sentinel := by
      refine funext fun (c : Fin 8) => ?_
      show val_main_v4 (F := Ideal) x0 (hred.lift (ix2 r n) c) = _
      rw [Cert.Rank3Last.lift_last hred r n c, val_main_v4_apply, nb_at, val_main_v3_apply, val_main_cst_apply]
      rfl
    rw [hg]
    rfl
  rw [h5]
  exact Cert.Spec.validOr_eq _

/-- The pooled encoding. -/
theorem pooled_at (r : Fin 8192) (e : Fin 257) :
    val_main_v21 (F := Ideal) x0 x1 x2 x3 x4 (ix2 r e) = Cert.Spec.pooled (fun c h => x1 (ix2 c h)) (fun h => x2 (ix1 h)) (fun h e => x3 (ix2 h e)) (fun e => x4 (ix1 e)) (nbs x0 r) e := by
  rw [val_main_v21_apply, val_main_cst_0_apply, Ideal.ofBits_def, Ideal.ofBits_zero_f32, zero_add]
  unfold Cert.Spec.pooled Cert.Spec.contrib
  refine Finset.sum_congr rfl fun k _ => ?_
  rw [i_v21, val_main_v20_apply, enc_at, flag_at]
  rfl

/-- The joined array: the own state, then the pooled encoding. -/
theorem feat_at (r : Fin 8192) (x : Fin 265) :
    val_main_v22 (F := Ideal) x0 x1 x2 x3 x4 (ix2 r x)
      = Cert.Spec.feat (fun c h => x1 (ix2 c h)) (fun h => x2 (ix1 h)) (fun h e => x3 (ix2 h e)) (fun e => x4 (ix1 e)) (own x0 r) (nbs x0 r) x := by
  unfold val_main_v22 Cert.Spec.feat
  by_cases hx : x.val < 8
  · rw [dif_pos hx]
    rw [concatenate_pair_apply_left (1 : Fin S8192x265.rank) _ _ concatenates_S8192x8_S8192x257_S8192x265_d1 (ix2 r x) rfl
      (ix2 r (⟨x.val, hx⟩ : Fin 8)) (fun b => by match b with | ⟨0, _⟩ => rfl | ⟨1, _⟩ => rfl)]
    exact own_at x0 r ⟨x.val, hx⟩
  · rw [dif_neg hx]
    have hx' : x.val - 8 < 257 := by have := x.isLt; omega
    rw [concatenate_pair_apply_right (1 : Fin S8192x265.rank) _ _ concatenates_S8192x8_S8192x257_S8192x265_d1 (ix2 r x) rfl rfl
      (ix2 r (⟨x.val - 8, hx'⟩ : Fin 257))
      (fun b hb => by
        match b with
        | ⟨0, _⟩ => rfl
        | ⟨1, _⟩ => exact absurd rfl hb)
      (by show x.val - 8 + 8 = x.val; omega)]
    exact pooled_at x0 x1 x2 x3 x4 r ⟨x.val - 8, hx'⟩

/-- The head's hidden layer. -/
theorem hq_at (r : Fin 8192) (j : Fin 256) :
    val_main_v27 (F := Ideal) x0 x1 x2 x3 x4 x5 x6 (ix2 r j)
      = Cert.Spec.hq (fun c h => x1 (ix2 c h)) (fun h => x2 (ix1 h)) (fun h e => x3 (ix2 h e)) (fun e => x4 (ix1 e)) (fun x j => x5 (ix2 x j)) (fun j => x6 (ix1 j)) (own x0 r) (nbs x0 r) j := by
  rw [val_main_v27_apply, val_main_v26_apply, val_main_v23_apply, val_main_v25_apply, val_main_v24_apply,
    val_main_call2_v0_apply, val_main_call2_cst_apply, i_v25]
  unfold Cert.Spec.hq
  simp only [i_l23, i_r23, feat_at, Ideal.ofBits_def, Ideal.ofBits_zero_f32, Ideal.maximumf_def, Ideal.addf_def]

/-- The output. -/
theorem q_at (r : Fin 8192) (a : Fin 30) :
    val_main_v31 (F := Ideal) x0 x1 x2 x3 x4 x5 x6 x7 x8 (ix2 r a) = Grow x0 x1 x2 x3 x4 x5 x6 x7 x8 r a := by
  rw [val_main_v31_apply, val_main_v28_apply, val_main_v30_apply, val_main_v29_apply, i_v30]
  unfold Grow Cert.Spec.q
  simp only [i_l28, i_r28, hq_at, Ideal.addf_def]

/-- The reference's last stage is the result array. -/
theorem ref_eq : val_main_v31 (F := Ideal) x0 x1 x2 x3 x4 x5 x6 x7 x8 = G x0 x1 x2 x3 x4 x5 x6 x7 x8 := by
  funext i
  obtain ⟨r, a, rfl⟩ : ∃ (r : Fin 8192) (a : Fin 30), i = ix2 r a := ⟨i 0, i 1, eq_ix2 i⟩
  rw [q_at, G_ix2]

end Cert.ReferenceIdeal.RefSpec

end
-- ==== Proof.lean ====
/-
  A Q-value network over a batch of 8192 rows, computed two ways, and the claim that both give the same
  extended reals.

  Each batch row holds its own state (8 numbers) and 64 neighbours (8 numbers each).  A neighbour is
  encoded by two affine layers, each followed by a positive part, into 257 features; a neighbour with
  a coordinate equal to the sentinel -1 is dropped; the kept encodings are summed; the own state and
  the sum (265 features) go through a hidden layer with a positive part and a last affine layer to 30
  outputs.

  The kernel works on blocks of 128 rows.  Inside a block it walks the neighbours in four groups of 16,
  keeping two running sums: the 256 leading encoder features (by a matrix product) and the last
  feature (by a row sum against the last weight column); it counts a neighbour's sentinel coordinates
  and keeps it when the count is zero; and it applies the hidden layer as three terms, one for the own
  state, one for the 256 leading sums, one for the last.  The reference does everything at once: one
  product over 257 encoder columns, an or over the comparisons, one sum over 64 neighbours, one product
  over the 265 joined features.

  On the extended reals a change of float format is the identity and addition is commutative and
  associative, so the two agree: a sum over 64 neighbours is four sums over 16 added in order from
  zero; a sum over 265 features is the sum of its first 8, next 256 and last terms; a count of zeros
  and ones vanishes exactly when no term is one, which is when the or of the comparisons is false.
  No finiteness of the inputs is used.

  The pieces: `Spec` (the network and the regroupings), `Flag` (the keep-flag two ways), `Whole` (the
  result array `G` of the nine arguments); for the reference `RefRun` (its run) and `RefSpec` (its last
  stage is `G`); for the kernel `KDots`, `KBody`, `KPay` (the body's values at an entry), `KLoop` (the
  loop's carried value after four trips and the stored block), `KRow` (a row of the block is the
  network), `KWin` (the loaded blocks as pieces of the arguments), `KFinal` (the array ends at `G`).
-/
import proofs.«143022_j9594956939555_2_alg».proof.Defs
import proofs.«143022_j9594956939555_2_alg».proof.Proof.Gen.Kernel
import proofs.«143022_j9594956939555_2_alg».proof.Proof.Gen.Kernel.Skeleton
import proofs.«143022_j9594956939555_2_alg».proof.Proof.Gen.Kernel.Loops
import proofs.«143022_j9594956939555_2_alg».proof.Proof.Gen.Kernel.Launch
import proofs.«143022_j9594956939555_2_alg».proof.Proof.Gen.Kernel.Points
import proofs.«143022_j9594956939555_2_alg».proof.Proof.Gen.Kernel.Frame
import proofs.«143022_j9594956939555_2_alg».proof.Proof.Gen.KernelIdeal
import proofs.«143022_j9594956939555_2_alg».proof.Proof.Gen.KernelIdeal.Skeleton
import proofs.«143022_j9594956939555_2_alg».proof.Proof.Gen.KernelIdeal.Loops
import proofs.«143022_j9594956939555_2_alg».proof.Proof.Gen.KernelIdeal.Launch
import proofs.«143022_j9594956939555_2_alg».proof.Proof.Gen.KernelIdeal.Points
import proofs.«143022_j9594956939555_2_alg».proof.Proof.Gen.KernelIdeal.Frame
import proofs.«143022_j9594956939555_2_alg».proof.Proof.Gen.ReferenceIdeal
import proofs.«143022_j9594956939555_2_alg».proof.Proof.Gen.Pre_finite_inputs
import proofs.«143022_j9594956939555_2_alg».proof.Proof.Gen.KernelIdeal.Value
import proofs.«143022_j9594956939555_2_alg».proof.Proof.KFinal
import proofs.«143022_j9594956939555_2_alg».proof.Proof.RefRun
import proofs.«143022_j9594956939555_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the result array `Whole.G` of the
    arguments: the kernel block by block, the reference as its last stage. -/
theorem algebraic : Cert.algebraic_KernelIdeal_ReferenceIdeal := by
  intro m ρ m' ρ' _ hagree
  refine ⟨fun c => Cert.Whole.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8⟩ := hagree c
  refine (Cert.ReferenceIdeal.RefSpec.ref_eq _ _ _ _ _ _ _ _ _).trans ?_
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
